-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v209)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v209) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v188) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4 : Shape := ⟨2, ![16, 4]⟩
abbrev S16x3x2048 : Shape := ⟨3, ![16, 3, 2048]⟩
abbrev S_ : Shape := ⟨0, ![]⟩

class Facts : Prop where
  bcast_S_S16x4 : S_.BroadcastsInDim S16x4 (![] : Fin 0 → Fin S16x4.rank)
  reducesTo_S16x4_S_d0_1 : S16x4.ReducesTo [0, 1] S_
  h_S_ : 0 < S_.numel
  bcast_S_S16x3x2048 : S_.BroadcastsInDim S16x3x2048 (![] : Fin 0 → Fin S16x3x2048.rank)
  reducesTo_S16x3x2048_S_d0_1_2 : S16x3x2048.ReducesTo [0, 1, 2] S_

variable [Facts]

def fn {F : FTy → Type} [FloatOps F] (main_arg0 : FVec F S16x4 .f32) (main_arg1 : FVec F S16x4 .f32) (main_arg2 : FVec F S16x3x2048 .f32) : IVec S_ 1 :=
  let main_v0 : FVec F S16x4 .f32 := Host.absf main_arg0
  let main_cst : FVec F S_ .f32 := constant S_ .f32 0x7F800000#32
  let main_v1 : FVec F S16x4 .f32 := broadcastInDim S16x4 ![] bcast_S_S16x4 main_cst
  let main_v2 : IVec S16x4 1 := cmpf .olt main_v0 main_v1
  let main_c : IVec S_ 1 := constantI S_ 1 1#1
  let main_v3 : IVec S_ 1 := (fun x v => Host.reduce IntOp.andi x v reducesTo_S16x4_S_d0_1 h_S_) main_v2 main_c
  let main_v4 : FVec F S16x4 .f32 := Host.absf main_arg1
  let main_cst_0 : FVec F S_ .f32 := constant S_ .f32 0x7F800000#32
  let main_v5 : FVec F S16x4 .f32 := broadcastInDim S16x4 ![] bcast_S_S16x4 main_cst_0
  let main_v6 : IVec S16x4 1 := cmpf .olt main_v4 main_v5
  let main_c_1 : IVec S_ 1 := constantI S_ 1 1#1
  let main_v7 : IVec S_ 1 := (fun x v => Host.reduce IntOp.andi x v reducesTo_S16x4_S_d0_1 h_S_) main_v6 main_c_1
  let main_v8 : IVec S_ 1 := andi main_v3 main_v7
  let main_v9 : FVec F S16x3x2048 .f32 := Host.absf main_arg2
  let main_cst_2 : FVec F S_ .f32 := constant S_ .f32 0x7F800000#32
  let main_v10 : FVec F S16x3x2048 .f32 := broadcastInDim S16x3x2048 ![] bcast_S_S16x3x2048 main_cst_2
  let main_v11 : IVec S16x3x2048 1 := cmpf .olt main_v9 main_v10
  let main_c_3 : IVec S_ 1 := constantI S_ 1 1#1
  let main_v12 : IVec S_ 1 := (fun x v => Host.reduce IntOp.andi x v reducesTo_S16x3x2048_S_d0_1_2 h_S_) main_v11 main_c_3
  let main_v13 : IVec S_ 1 := andi main_v8 main_v12
  main_v13
-- ==== Kernel.lean ====
abbrev S16x4 : Shape := ⟨2, ![16, 4]⟩
abbrev S16x3x2048 : Shape := ⟨3, ![16, 3, 2048]⟩
abbrev S_ : Shape := ⟨0, ![]⟩
abbrev S16 : Shape := ⟨1, ![16]⟩
abbrev S16x1 : Shape := ⟨2, ![16, 1]⟩
abbrev S16x3 : Shape := ⟨2, ![16, 3]⟩
abbrev S16x1x3 : Shape := ⟨3, ![16, 1, 3]⟩
abbrev S16x3x3 : Shape := ⟨3, ![16, 3, 3]⟩
abbrev S16x1x2048 : Shape := ⟨3, ![16, 1, 2048]⟩
abbrev S16x2048 : Shape := ⟨2, ![16, 2048]⟩
abbrev S16x4x2048 : Shape := ⟨3, ![16, 4, 2048]⟩
abbrev S1x4x2048 : Shape := ⟨3, ![1, 4, 2048]⟩
abbrev S1x4x1024 : Shape := ⟨3, ![1, 4, 1024]⟩
abbrev S1x1x1024 : Shape := ⟨3, ![1, 1, 1024]⟩
abbrev S4x2048 : Shape := ⟨2, ![4, 2048]⟩
abbrev S4x1024 : Shape := ⟨2, ![4, 1024]⟩
abbrev S2048x4 : Shape := ⟨2, ![2048, 4]⟩
abbrev S2048x1024 : Shape := ⟨2, ![2048, 1024]⟩
abbrev S1024 : Shape := ⟨1, ![1024]⟩
abbrev S1x1024 : Shape := ⟨2, ![1, 1024]⟩

abbrev nBuf : Space → Nat
  | .hbm => 271
  | .vmem => 6
  | .smem => 0
  | _ => 0

abbrev hbmTy0_0 (i : Nat) : BufTy := match i % 128 with
  | 0 => ⟨S16x4, .f32⟩
  | 1 => ⟨S16x4, .f32⟩
  | 2 => ⟨S16x3x2048, .f32⟩
  | 3 => ⟨S16x4, .f32⟩
  | 4 => ⟨S_, .f32⟩
  | 5 => ⟨S16, .f32⟩
  | 6 => ⟨S16x4, .f32⟩
  | 7 => ⟨S_, .f32⟩
  | 8 => ⟨S16, .f32⟩
  | 9 => ⟨S16, .f32⟩
  | 10 => ⟨S16x4, .f32⟩
  | 11 => ⟨S_, .f32⟩
  | 12 => ⟨S16, .f32⟩
  | 13 => ⟨S16, .f32⟩
  | 14 => ⟨S16, .f32⟩
  | 15 => ⟨S_, .f32⟩
  | 16 => ⟨S_, .f32⟩
  | 17 => ⟨S16, .f32⟩
  | 18 => ⟨S16, .f32⟩
  | 19 => ⟨S16, .f32⟩
  | 20 => ⟨S_, .f32⟩
  | 21 => ⟨S16, .f32⟩
  | 22 => ⟨S16, .f32⟩
  | 23 => ⟨S_, .f32⟩
  | 24 => ⟨S_, .f32⟩
  | 25 => ⟨S_, .f32⟩
  | 26 => ⟨S_, .f32⟩
  | 27 => ⟨S16x4, .f32⟩
  | 28 => ⟨S_, .f32⟩
  | 29 => ⟨S16, .f32⟩
  | 30 => ⟨S16x1, .f32⟩
  | 31 => ⟨S16x1, .f32⟩
  | 32 => ⟨S_, .f32⟩
  | 33 => ⟨S_, .f32⟩
  | 34 => ⟨S16x1, .f32⟩
  | 35 => ⟨S16x1, .f32⟩
  | 36 => ⟨S16x4, .f32⟩
  | 37 => ⟨S16x4, .f32⟩
  | 38 => ⟨S16x1, .f32⟩
  | 39 => ⟨S16, .f32⟩
  | 40 => ⟨S16x1, .f32⟩
  | 41 => ⟨S16, .f32⟩
  | 42 => ⟨S16x1, .f32⟩
  | 43 => ⟨S16, .f32⟩
  | 44 => ⟨S16x1, .f32⟩
  | 45 => ⟨S16, .f32⟩
  | 46 => ⟨S16, .f32⟩
  | 47 => ⟨S16, .f32⟩
  | 48 => ⟨S16, .f32⟩
  | 49 => ⟨S_, .f32⟩
  | 50 => ⟨S16, .f32⟩
  | 51 => ⟨S16, .f32⟩
  | 52 => ⟨S_, .f32⟩
  | 53 => ⟨S16, .f32⟩
  | 54 => ⟨S16, .f32⟩
  | 55 => ⟨S16, .f32⟩
  | 56 => ⟨S16, .f32⟩
  | 57 => ⟨S16, .f32⟩
  | 58 => ⟨S_, .f32⟩
  | 59 => ⟨S16, .f32⟩
  | 60 => ⟨S16, .f32⟩
  | 61 => ⟨S16, .f32⟩
  | 62 => ⟨S16, .f32⟩
  | 63 => ⟨S16, .f32⟩
  | 64 => ⟨S_, .f32⟩
  | 65 => ⟨S16, .f32⟩
  | 66 => ⟨S16, .f32⟩
  | 67 => ⟨S16x1, .f32⟩
  | 68 => ⟨S16x1, .f32⟩
  | 69 => ⟨S16x1, .f32⟩
  | 70 => ⟨S16x3, .f32⟩
  | 71 => ⟨S16, .f32⟩
  | 72 => ⟨S16, .f32⟩
  | 73 => ⟨S16, .f32⟩
  | 74 => ⟨S_, .f32⟩
  | 75 => ⟨S16, .f32⟩
  | 76 => ⟨S16, .f32⟩
  | 77 => ⟨S16, .f32⟩
  | 78 => ⟨S16, .f32⟩
  | 79 => ⟨S16, .f32⟩
  | 80 => ⟨S_, .f32⟩
  | 81 => ⟨S16, .f32⟩
  | 82 => ⟨S16, .f32⟩
  | 83 => ⟨S_, .f32⟩
  | 84 => ⟨S16, .f32⟩
  | 85 => ⟨S16, .f32⟩
  | 86 => ⟨S16, .f32⟩
  | 87 => ⟨S16, .f32⟩
  | 88 => ⟨S16, .f32⟩
  | 89 => ⟨S_, .f32⟩
  | 90 => ⟨S16, .f32⟩
  | 91 => ⟨S16, .f32⟩
  | 92 => ⟨S16x1, .f32⟩
  | 93 => ⟨S16x1, .f32⟩
  | 94 => ⟨S16x1, .f32⟩
  | 95 => ⟨S16x3, .f32⟩
  | 96 => ⟨S16, .f32⟩
  | 97 => ⟨S16, .f32⟩
  | 98 => ⟨S16, .f32⟩
  | 99 => ⟨S_, .f32⟩
  | 100 => ⟨S16, .f32⟩
  | 101 => ⟨S16, .f32⟩
  | 102 => ⟨S16, .f32⟩
  | 103 => ⟨S16, .f32⟩
  | 104 => ⟨S16, .f32⟩
  | 105 => ⟨S_, .f32⟩
  | 106 => ⟨S16, .f32⟩
  | 107 => ⟨S16, .f32⟩
  | 108 => ⟨S16, .f32⟩
  | 109 => ⟨S16, .f32⟩
  | 110 => ⟨S16, .f32⟩
  | 111 => ⟨S_, .f32⟩
  | 112 => ⟨S16, .f32⟩
  | 113 => ⟨S16, .f32⟩
  | 114 => ⟨S_, .f32⟩
  | 115 => ⟨S16, .f32⟩
  | 116 => ⟨S16, .f32⟩
  | 117 => ⟨S16x1, .f32⟩
  | 118 => ⟨S16x1, .f32⟩
  | 119 => ⟨S16x1, .f32⟩
  | 120 => ⟨S16x3, .f32⟩
  | 121 => ⟨S16x1x3, .f32⟩
  | 122 => ⟨S16x1x3, .f32⟩
  | 123 => ⟨S16x1x3, .f32⟩
  | 124 => ⟨S16x3x3, .f32⟩
  | 125 => ⟨S16x4, .f32⟩
  | 126 => ⟨S_, .f32⟩
  | 127 => ⟨S16, .f32⟩
  | _ => ⟨S16x4, .f32⟩

abbrev hbmTy0_1 (i : Nat) : BufTy := match i % 128 with
  | 0 => ⟨S16x1, .f32⟩
  | 1 => ⟨S16x1, .f32⟩
  | 2 => ⟨S_, .f32⟩
  | 3 => ⟨S_, .f32⟩
  | 4 => ⟨S16x1, .f32⟩
  | 5 => ⟨S16x1, .f32⟩
  | 6 => ⟨S16x4, .f32⟩
  | 7 => ⟨S16x4, .f32⟩
  | 8 => ⟨S16x1, .f32⟩
  | 9 => ⟨S16, .f32⟩
  | 10 => ⟨S16x1, .f32⟩
  | 11 => ⟨S16, .f32⟩
  | 12 => ⟨S16x1, .f32⟩
  | 13 => ⟨S16, .f32⟩
  | 14 => ⟨S16x1, .f32⟩
  | 15 => ⟨S16, .f32⟩
  | 16 => ⟨S16, .f32⟩
  | 17 => ⟨S16, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S16, .f32⟩
  | 26 => ⟨S16, .f32⟩
  | 27 => ⟨S16, .f32⟩
  | 28 => ⟨S_, .f32⟩
  | 29 => ⟨S16, .f32⟩
  | 30 => ⟨S16, .f32⟩
  | 31 => ⟨S16, .f32⟩
  | 32 => ⟨S16, .f32⟩
  | 33 => ⟨S16, .f32⟩
  | 34 => ⟨S_, .f32⟩
  | 35 => ⟨S16, .f32⟩
  | 36 => ⟨S16, .f32⟩
  | 37 => ⟨S16x1, .f32⟩
  | 38 => ⟨S16x1, .f32⟩
  | 39 => ⟨S16x1, .f32⟩
  | 40 => ⟨S16x3, .f32⟩
  | 41 => ⟨S16, .f32⟩
  | 42 => ⟨S16, .f32⟩
  | 43 => ⟨S16, .f32⟩
  | 44 => ⟨S_, .f32⟩
  | 45 => ⟨S16, .f32⟩
  | 46 => ⟨S16, .f32⟩
  | 47 => ⟨S16, .f32⟩
  | 48 => ⟨S16, .f32⟩
  | 49 => ⟨S16, .f32⟩
  | 50 => ⟨S_, .f32⟩
  | 51 => ⟨S16, .f32⟩
  | 52 => ⟨S16, .f32⟩
  | 53 => ⟨S_, .f32⟩
  | 54 => ⟨S16, .f32⟩
  | 55 => ⟨S16, .f32⟩
  | 56 => ⟨S16, .f32⟩
  | 57 => ⟨S16, .f32⟩
  | 58 => ⟨S16, .f32⟩
  | 59 => ⟨S_, .f32⟩
  | 60 => ⟨S16, .f32⟩
  | 61 => ⟨S16, .f32⟩
  | 62 => ⟨S16x1, .f32⟩
  | 63 => ⟨S16x1, .f32⟩
  | 64 => ⟨S16x1, .f32⟩
  | 65 => ⟨S16x3, .f32⟩
  | 66 => ⟨S16, .f32⟩
  | 67 => ⟨S16, .f32⟩
  | 68 => ⟨S16, .f32⟩
  | 69 => ⟨S_, .f32⟩
  | 70 => ⟨S16, .f32⟩
  | 71 => ⟨S16, .f32⟩
  | 72 => ⟨S16, .f32⟩
  | 73 => ⟨S16, .f32⟩
  | 74 => ⟨S16, .f32⟩
  | 75 => ⟨S_, .f32⟩
  | 76 => ⟨S16, .f32⟩
  | 77 => ⟨S16, .f32⟩
  | 78 => ⟨S16, .f32⟩
  | 79 => ⟨S16, .f32⟩
  | 80 => ⟨S16, .f32⟩
  | 81 => ⟨S_, .f32⟩
  | 82 => ⟨S16, .f32⟩
  | 83 => ⟨S16, .f32⟩
  | 84 => ⟨S_, .f32⟩
  | 85 => ⟨S16, .f32⟩
  | 86 => ⟨S16, .f32⟩
  | 87 => ⟨S16x1, .f32⟩
  | 88 => ⟨S16x1, .f32⟩
  | 89 => ⟨S16x1, .f32⟩
  | 90 => ⟨S16x3, .f32⟩
  | 91 => ⟨S16x1x3, .f32⟩
  | 92 => ⟨S16x1x3, .f32⟩
  | 93 => ⟨S16x1x3, .f32⟩
  | 94 => ⟨S16x3x3, .f32⟩
  | 95 => ⟨S16x3x2048, .f32⟩
  | 96 => ⟨S16x3x2048, .f32⟩
  | 97 => ⟨S16x1x2048, .f32⟩
  | 98 => ⟨S16x2048, .f32⟩
  | 99 => ⟨S16x1x2048, .f32⟩
  | 100 => ⟨S16x2048, .f32⟩
  | 101 => ⟨S16x1x2048, .f32⟩
  | 102 => ⟨S16x2048, .f32⟩
  | 103 => ⟨S16x1x2048, .f32⟩
  | 104 => ⟨S16x2048, .f32⟩
  | 105 => ⟨S16x1x2048, .f32⟩
  | 106 => ⟨S16x2048, .f32⟩
  | 107 => ⟨S16x1x2048, .f32⟩
  | 108 => ⟨S16x2048, .f32⟩
  | 109 => ⟨S16x2048, .f32⟩
  | 110 => ⟨S16x2048, .f32⟩
  | 111 => ⟨S16x2048, .f32⟩
  | 112 => ⟨S16x2048, .f32⟩
  | 113 => ⟨S16x2048, .f32⟩
  | 114 => ⟨S_, .f32⟩
  | 115 => ⟨S16x2048, .f32⟩
  | 116 => ⟨S16x2048, .f32⟩
  | 117 => ⟨S_, .f32⟩
  | 118 => ⟨S16x2048, .f32⟩
  | 119 => ⟨S16x2048, .f32⟩
  | 120 => ⟨S_, .f32⟩
  | 121 => ⟨S16x2048, .f32⟩
  | 122 => ⟨S16x2048, .f32⟩
  | 123 => ⟨S16x1x2048, .f32⟩
  | 124 => ⟨S16x1x2048, .f32⟩
  | 125 => ⟨S16x1x2048, .f32⟩
  | 126 => ⟨S16x1x2048, .f32⟩
  | 127 => ⟨S16x4x2048, .f32⟩
  | _ => ⟨S16x4, .f32⟩

abbrev hbmTy0_2 (i : Nat) : BufTy := match i % 128 with
  | 0 => ⟨S_, .f32⟩
  | 1 => ⟨S16x2048, .f32⟩
  | 2 => ⟨S16x1x2048, .f32⟩
  | 3 => ⟨S16x1x2048, .f32⟩
  | 4 => ⟨S16x1x2048, .f32⟩
  | 5 => ⟨S16x1x2048, .f32⟩
  | 6 => ⟨S16x4x2048, .f32⟩
  | 7 => ⟨S16x1x2048, .f32⟩
  | 8 => ⟨S_, .f32⟩
  | 9 => ⟨S_, .f32⟩
  | 10 => ⟨S_, .f32⟩
  | 11 => ⟨S_, .f32⟩
  | 12 => ⟨S_, .i1⟩
  | 13 => ⟨S_, .f32⟩
  | 14 => ⟨S_, .f32⟩
  | _ => ⟨S16x4, .f32⟩

abbrev hbmTy (i : Nat) : BufTy := match i / 128 with
  | 0 => hbmTy0_0 i
  | 1 => hbmTy0_1 i
  | 2 => hbmTy0_2 i
  | _ => ⟨S16x4, .f32⟩

abbrev bufTy : (tb : Table) → Fin (tcTables nBuf tb) → BufTy
  | .hbm, ⟨i, _⟩ => hbmTy i
  | .local _ .vmem, ⟨0, _⟩ => ⟨S1x4x2048, .f32⟩
  | .local _ .vmem, ⟨1, _⟩ => ⟨S1x4x2048, .f32⟩
  | .local _ .vmem, ⟨2, _⟩ => ⟨S1x4x1024, .f32⟩
  | .local _ .vmem, ⟨3, _⟩ => ⟨S1x4x1024, .f32⟩
  | .local _ .vmem, ⟨4, _⟩ => ⟨S1x1x1024, .f32⟩
  | .local _ .vmem, ⟨5, _⟩ => ⟨S1x1x1024, .f32⟩
  | _, _ => ⟨S16x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_call2_v0 : Ref sig .tc := ⟨.hbm, 16, rfl⟩
abbrev main_call2_v1 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_call3_v0 : Ref sig .tc := ⟨.hbm, 27, rfl⟩
abbrev main_call3_cst : Ref sig .tc := ⟨.hbm, 28, rfl⟩
abbrev main_call3_v1 : Ref sig .tc := ⟨.hbm, 29, rfl⟩
abbrev main_call3_v2 : Ref sig .tc := ⟨.hbm, 30, rfl⟩
abbrev main_v11 : Ref sig .tc := ⟨.hbm, 31, rfl⟩
abbrev main_cst_4 : Ref sig .tc := ⟨.hbm, 32, rfl⟩
abbrev main_call4_v0 : Ref sig .tc := ⟨.hbm, 33, rfl⟩
abbrev main_call4_v1 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_8 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_9 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_10 : Ref sig .tc := ⟨.hbm, 80, rfl⟩
abbrev main_v52 : Ref sig .tc := ⟨.hbm, 81, rfl⟩
abbrev main_v53 : Ref sig .tc := ⟨.hbm, 82, rfl⟩
abbrev main_cst_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_13 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_14 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_15 : Ref sig .tc := ⟨.hbm, 111, rfl⟩
abbrev main_v78 : Ref sig .tc := ⟨.hbm, 112, rfl⟩
abbrev main_v79 : Ref sig .tc := ⟨.hbm, 113, rfl⟩
abbrev main_cst_16 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_call5_v0 : Ref sig .tc := ⟨.hbm, 125, rfl⟩
abbrev main_call5_cst : Ref sig .tc := ⟨.hbm, 126, rfl⟩
abbrev main_call5_v1 : Ref sig .tc := ⟨.hbm, 127, rfl⟩
abbrev main_call5_v2 : Ref sig .tc := ⟨.hbm, 128, rfl⟩
abbrev main_v90 : Ref sig .tc := ⟨.hbm, 129, rfl⟩
abbrev main_cst_17 : Ref sig .tc := ⟨.hbm, 130, rfl⟩
abbrev main_call6_v0 : Ref sig .tc := ⟨.hbm, 131, rfl⟩
abbrev main_call6_v1 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_18 : Ref sig .tc := ⟨.hbm, 147, rfl⟩
abbrev main_v105 : Ref sig .tc := ⟨.hbm, 148, rfl⟩
abbrev main_v106 : Ref sig .tc := ⟨.hbm, 149, rfl⟩
abbrev main_cst_19 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_cst_20 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_21 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_cst_22 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_23 : Ref sig .tc := ⟨.hbm, 178, rfl⟩
abbrev main_v131 : Ref sig .tc := ⟨.hbm, 179, rfl⟩
abbrev main_v132 : Ref sig .tc := ⟨.hbm, 180, rfl⟩
abbrev main_cst_24 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_cst_25 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_cst_26 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_cst_27 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_cst_28 : Ref sig .tc := ⟨.hbm, 209, rfl⟩
abbrev main_v157 : Ref sig .tc := ⟨.hbm, 210, rfl⟩
abbrev main_v158 : Ref sig .tc := ⟨.hbm, 211, rfl⟩
abbrev main_cst_29 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_cst_30 : Ref sig .tc := ⟨.hbm, 242, rfl⟩
abbrev main_v188 : Ref sig .tc := ⟨.hbm, 243, rfl⟩
abbrev main_v189 : Ref sig .tc := ⟨.hbm, 244, rfl⟩
abbrev main_cst_31 : Ref sig .tc := ⟨.hbm, 245, rfl⟩
abbrev main_v190 : Ref sig .tc := ⟨.hbm, 246, rfl⟩
abbrev main_v191 : Ref sig .tc := ⟨.hbm, 247, rfl⟩
abbrev main_cst_32 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_cst_33 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_cst_34 : Ref sig .tc := ⟨.hbm, 264, rfl⟩
abbrev main_v206 : Ref sig .tc := ⟨.hbm, 265, rfl⟩
abbrev main_cst_35 : Ref sig .tc := ⟨.hbm, 266, rfl⟩
abbrev main_v207 : Ref sig .tc := ⟨.hbm, 267, rfl⟩
abbrev main_v208 : Ref sig .tc := ⟨.hbm, 268, rfl⟩
abbrev main_cst_36 : Ref sig .tc := ⟨.hbm, 269, rfl⟩
abbrev main_v209 : Ref sig .tc := ⟨.hbm, 270, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S16x4_S16_d1 : S16x4.ReducesTo [1] S16
  h_S_ : 0 < S_.numel
  bcast_S_S16 : S_.BroadcastsInDim S16 (![] : Fin 0 → Fin S16.rank)
  reducesTo_S16_S_d0 : S16.ReducesTo [0] S_
  bcast_S16_S16x1_0 : S16.BroadcastsInDim S16x1 (![0] : Fin 1 → Fin S16x1.rank)
  bcast_S_S16x1 : S_.BroadcastsInDim S16x1 (![] : Fin 0 → Fin S16x1.rank)
  bcast_S16x1_S16x4_0_1 : S16x1.BroadcastsInDim S16x4 (![0, 1] : Fin 2 → Fin S16x4.rank)
  slices_S16x4_S16x1_0_0 : S16x4.Slices ![0, 0] S16x1
  shapeCasts_S16x1_S16 : S16x1.ShapeCasts S16
  slices_S16x4_S16x1_0_1 : S16x4.Slices ![0, 1] S16x1
  slices_S16x4_S16x1_0_2 : S16x4.Slices ![0, 2] S16x1
  slices_S16x4_S16x1_0_3 : S16x4.Slices ![0, 3] S16x1
  concatenates_S16x1_S16x1_S16x1_S16x3_d1 : Shape.Concatenates [S16x1, S16x1, S16x1] S16x3 1
  bcast_S16x3_S16x1x3_0_2 : S16x3.BroadcastsInDim S16x1x3 (![0, 2] : Fin 2 → Fin S16x1x3.rank)
  concatenates_S16x1x3_S16x1x3_S16x1x3_S16x3x3_d1 : Shape.Concatenates [S16x1x3, S16x1x3, S16x1x3] S16x3x3 1
  slices_S16x3x2048_S16x1x2048_0_0_0 : S16x3x2048.Slices ![0, 0, 0] S16x1x2048
  shapeCasts_S16x1x2048_S16x2048 : S16x1x2048.ShapeCasts S16x2048
  slices_S16x3x2048_S16x1x2048_0_1_0 : S16x3x2048.Slices ![0, 1, 0] S16x1x2048
  slices_S16x3x2048_S16x1x2048_0_2_0 : S16x3x2048.Slices ![0, 2, 0] S16x1x2048
  bcast_S_S16x2048 : S_.BroadcastsInDim S16x2048 (![] : Fin 0 → Fin S16x2048.rank)
  bcast_S16x2048_S16x1x2048_0_2 : S16x2048.BroadcastsInDim S16x1x2048 (![0, 2] : Fin 2 → Fin S16x1x2048.rank)
  concatenates_S16x1x2048_S16x1x2048_S16x1x2048_S16x1x2048_S16x4x2048_d1 : Shape.Concatenates [S16x1x2048, S16x1x2048, S16x1x2048, S16x1x2048] S16x4x2048 1
  inb_S1x4x2048_S1x4x2048_0_0_0 : ∀ a, (![0, 0, 0] : Fin 3 → Nat) a + S1x4x2048.size a ≤ S1x4x2048.size a
  h_S1x4x2048 : 0 < S1x4x2048.numel
  shapeCasts_S1x4x2048_S4x2048 : S1x4x2048.ShapeCasts S4x2048
  inb_S1x4x1024_S1x4x1024_0_0_0 : ∀ a, (![0, 0, 0] : Fin 3 → Nat) a + S1x4x1024.size a ≤ S1x4x1024.size a
  h_S1x4x1024 : 0 < S1x4x1024.numel
  shapeCasts_S1x4x1024_S4x1024 : S1x4x1024.ShapeCasts S4x1024
  transposes_S4x2048_p1_0_S2048x4 : S4x2048.Transposes [1, 0] S2048x4
  reduces_S2048x1024_S1024 : S2048x1024.Reduces [0] S1024
  slices_S4x1024_o1_0_S1x1024 : S4x1024.Slices ![1, 0] S1x1024
  shapeCasts_S1x1024_S1024 : S1x1024.ShapeCasts S1024
  slices_S4x1024_o2_0_S1x1024 : S4x1024.Slices ![2, 0] S1x1024
  slices_S4x1024_o3_0_S1x1024 : S4x1024.Slices ![3, 0] S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1x1024 : S1024.ShapeCasts S1x1x1024
  reducesTo_S16x1x2048_S_d0_1_2 : S16x1x2048.ReducesTo [0, 1, 2] S_
  dot_S16x3x3_S16x3x2048_S16x3x2048_2_1_1_2_0_0_wf : DotDims.WF S16x3x3 S16x3x2048 S16x3x2048 [2] [1] [1] [2] [0] [0]
  dot_S2048x4_S4x1024_S2048x1024_1_0_0_1_n_n_wf : DotDims.WF S2048x4 S4x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x2048.size a ≤ S16x4x2048.size a
  hwx0_0 : ∀ i : grid0.Coords, EltTy.bits .f32 = 32 ∨ (Rect.block (s := S16x4x2048) S1x4x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x1024.size a ≤ S16x4x2048.size a
  hwx0_1 : ∀ i : grid0.Coords, EltTy.bits .f32 = 32 ∨ (Rect.block (s := S16x4x2048) S1x4x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S16x1x2048.size a
  hwx0_2 : ∀ i : grid0.Coords, EltTy.bits .f32 = 32 ∨ (Rect.block (s := S16x1x2048) S1x1x1024.size (cc0_transform_2 i) (hinb0_2 i)).WholeWords (EltTy.packing .f32)

variable [Facts₀]

def dot_S16x3x3_S16x3x2048_S16x3x2048_2_1_1_2_0_0 : DotDims S16x3x3 S16x3x2048 S16x3x2048 where
  lhsContracting := [2]
  rhsContracting := [1]
  lhsNonContracting := [1]
  rhsNonContracting := [2]
  lhsBatch := [0]
  rhsBatch := [0]
  wf := dot_S16x3x3_S16x3x2048_S16x3x2048_2_1_1_2_0_0_wf
def dot_S2048x4_S4x1024_S2048x1024_1_0_0_1_n_n : DotDims S2048x4 S4x1024 S2048x1024 where
  lhsContracting := [1]
  rhsContracting := [0]
  lhsNonContracting := [0]
  rhsNonContracting := [1]
  lhsBatch := []
  rhsBatch := []
  wf := dot_S2048x4_S4x1024_S2048x1024_1_0_0_1_n_n_wf

abbrev win0_0 : Pipeline.Window sig grid0 :=
  Pipeline.Window.ofSpec (Memref.whole main_v198) S1x4x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v204) S1x4x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v205) S1x1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4 : Shape := ⟨2, ![16, 4]⟩
abbrev S16x3x2048 : Shape := ⟨3, ![16, 3, 2048]⟩
abbrev S_ : Shape := ⟨0, ![]⟩
abbrev S16 : Shape := ⟨1, ![16]⟩
abbrev S16x1 : Shape := ⟨2, ![16, 1]⟩
abbrev S16x3 : Shape := ⟨2, ![16, 3]⟩
abbrev S16x1x3 : Shape := ⟨3, ![16, 1, 3]⟩
abbrev S16x3x3 : Shape := ⟨3, ![16, 3, 3]⟩
abbrev S16x2048 : Shape := ⟨2, ![16, 2048]⟩
abbrev S16x2048x2048 : Shape := ⟨3, ![16, 2048, 2048]⟩
abbrev S16x2048x1 : Shape := ⟨3, ![16, 2048, 1]⟩
abbrev S16x1x2048 : Shape := ⟨3, ![16, 1, 2048]⟩

abbrev nBuf : Space → Nat
  | .hbm => 250
  | .vmem => 0
  | .smem => 0
  | _ => 0

abbrev hbmTy0_0 (i : Nat) : BufTy := match i % 128 with
  | 0 => ⟨S16x4, .f32⟩
  | 1 => ⟨S16x4, .f32⟩
  | 2 => ⟨S16x3x2048, .f32⟩
  | 3 => ⟨S16x4, .f32⟩
  | 4 => ⟨S_, .f32⟩
  | 5 => ⟨S16, .f32⟩
  | 6 => ⟨S16x4, .f32⟩
  | 7 => ⟨S_, .f32⟩
  | 8 => ⟨S16, .f32⟩
  | 9 => ⟨S16, .f32⟩
  | 10 => ⟨S16x4, .f32⟩
  | 11 => ⟨S_, .f32⟩
  | 12 => ⟨S16, .f32⟩
  | 13 => ⟨S16, .f32⟩
  | 14 => ⟨S16, .f32⟩
  | 15 => ⟨S_, .f32⟩
  | 16 => ⟨S_, .f32⟩
  | 17 => ⟨S16, .f32⟩
  | 18 => ⟨S16, .f32⟩
  | 19 => ⟨S16, .f32⟩
  | 20 => ⟨S_, .f32⟩
  | 21 => ⟨S16, .f32⟩
  | 22 => ⟨S16, .f32⟩
  | 23 => ⟨S_, .f32⟩
  | 24 => ⟨S_, .f32⟩
  | 25 => ⟨S_, .f32⟩
  | 26 => ⟨S_, .f32⟩
  | 27 => ⟨S16x4, .f32⟩
  | 28 => ⟨S_, .f32⟩
  | 29 => ⟨S16, .f32⟩
  | 30 => ⟨S16x1, .f32⟩
  | 31 => ⟨S16x1, .f32⟩
  | 32 => ⟨S_, .f32⟩
  | 33 => ⟨S_, .f32⟩
  | 34 => ⟨S16x1, .f32⟩
  | 35 => ⟨S16x1, .f32⟩
  | 36 => ⟨S16x4, .f32⟩
  | 37 => ⟨S16x4, .f32⟩
  | 38 => ⟨S16x1, .f32⟩
  | 39 => ⟨S16, .f32⟩
  | 40 => ⟨S16x1, .f32⟩
  | 41 => ⟨S16, .f32⟩
  | 42 => ⟨S16x1, .f32⟩
  | 43 => ⟨S16, .f32⟩
  | 44 => ⟨S16x1, .f32⟩
  | 45 => ⟨S16, .f32⟩
  | 46 => ⟨S16, .f32⟩
  | 47 => ⟨S16, .f32⟩
  | 48 => ⟨S16, .f32⟩
  | 49 => ⟨S_, .f32⟩
  | 50 => ⟨S16, .f32⟩
  | 51 => ⟨S16, .f32⟩
  | 52 => ⟨S_, .f32⟩
  | 53 => ⟨S16, .f32⟩
  | 54 => ⟨S16, .f32⟩
  | 55 => ⟨S16, .f32⟩
  | 56 => ⟨S16, .f32⟩
  | 57 => ⟨S16, .f32⟩
  | 58 => ⟨S_, .f32⟩
  | 59 => ⟨S16, .f32⟩
  | 60 => ⟨S16, .f32⟩
  | 61 => ⟨S16, .f32⟩
  | 62 => ⟨S16, .f32⟩
  | 63 => ⟨S16, .f32⟩
  | 64 => ⟨S_, .f32⟩
  | 65 => ⟨S16, .f32⟩
  | 66 => ⟨S16, .f32⟩
  | 67 => ⟨S16x1, .f32⟩
  | 68 => ⟨S16x1, .f32⟩
  | 69 => ⟨S16x1, .f32⟩
  | 70 => ⟨S16x3, .f32⟩
  | 71 => ⟨S16, .f32⟩
  | 72 => ⟨S16, .f32⟩
  | 73 => ⟨S16, .f32⟩
  | 74 => ⟨S_, .f32⟩
  | 75 => ⟨S16, .f32⟩
  | 76 => ⟨S16, .f32⟩
  | 77 => ⟨S16, .f32⟩
  | 78 => ⟨S16, .f32⟩
  | 79 => ⟨S16, .f32⟩
  | 80 => ⟨S_, .f32⟩
  | 81 => ⟨S16, .f32⟩
  | 82 => ⟨S16, .f32⟩
  | 83 => ⟨S_, .f32⟩
  | 84 => ⟨S16, .f32⟩
  | 85 => ⟨S16, .f32⟩
  | 86 => ⟨S16, .f32⟩
  | 87 => ⟨S16, .f32⟩
  | 88 => ⟨S16, .f32⟩
  | 89 => ⟨S_, .f32⟩
  | 90 => ⟨S16, .f32⟩
  | 91 => ⟨S16, .f32⟩
  | 92 => ⟨S16x1, .f32⟩
  | 93 => ⟨S16x1, .f32⟩
  | 94 => ⟨S16x1, .f32⟩
  | 95 => ⟨S16x3, .f32⟩
  | 96 => ⟨S16, .f32⟩
  | 97 => ⟨S16, .f32⟩
  | 98 => ⟨S16, .f32⟩
  | 99 => ⟨S_, .f32⟩
  | 100 => ⟨S16, .f32⟩
  | 101 => ⟨S16, .f32⟩
  | 102 => ⟨S16, .f32⟩
  | 103 => ⟨S16, .f32⟩
  | 104 => ⟨S16, .f32⟩
  | 105 => ⟨S_, .f32⟩
  | 106 => ⟨S16, .f32⟩
  | 107 => ⟨S16, .f32⟩
  | 108 => ⟨S16, .f32⟩
  | 109 => ⟨S16, .f32⟩
  | 110 => ⟨S16, .f32⟩
  | 111 => ⟨S_, .f32⟩
  | 112 => ⟨S16, .f32⟩
  | 113 => ⟨S16, .f32⟩
  | 114 => ⟨S_, .f32⟩
  | 115 => ⟨S16, .f32⟩
  | 116 => ⟨S16, .f32⟩
  | 117 => ⟨S16x1, .f32⟩
  | 118 => ⟨S16x1, .f32⟩
  | 119 => ⟨S16x1, .f32⟩
  | 120 => ⟨S16x3, .f32⟩
  | 121 => ⟨S16x1x3, .f32⟩
  | 122 => ⟨S16x1x3, .f32⟩
  | 123 => ⟨S16x1x3, .f32⟩
  | 124 => ⟨S16x3x3, .f32⟩
  | 125 => ⟨S16x4, .f32⟩
  | 126 => ⟨S_, .f32⟩
  | 127 => ⟨S16, .f32⟩
  | _ => ⟨S16x4, .f32⟩

abbrev hbmTy0_1 (i : Nat) : BufTy := match i % 128 with
  | 0 => ⟨S16x1, .f32⟩
  | 1 => ⟨S16x1, .f32⟩
  | 2 => ⟨S_, .f32⟩
  | 3 => ⟨S_, .f32⟩
  | 4 => ⟨S16x1, .f32⟩
  | 5 => ⟨S16x1, .f32⟩
  | 6 => ⟨S16x4, .f32⟩
  | 7 => ⟨S16x4, .f32⟩
  | 8 => ⟨S16x1, .f32⟩
  | 9 => ⟨S16, .f32⟩
  | 10 => ⟨S16x1, .f32⟩
  | 11 => ⟨S16, .f32⟩
  | 12 => ⟨S16x1, .f32⟩
  | 13 => ⟨S16, .f32⟩
  | 14 => ⟨S16x1, .f32⟩
  | 15 => ⟨S16, .f32⟩
  | 16 => ⟨S16, .f32⟩
  | 17 => ⟨S16, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S16, .f32⟩
  | 26 => ⟨S16, .f32⟩
  | 27 => ⟨S16, .f32⟩
  | 28 => ⟨S_, .f32⟩
  | 29 => ⟨S16, .f32⟩
  | 30 => ⟨S16, .f32⟩
  | 31 => ⟨S16, .f32⟩
  | 32 => ⟨S16, .f32⟩
  | 33 => ⟨S16, .f32⟩
  | 34 => ⟨S_, .f32⟩
  | 35 => ⟨S16, .f32⟩
  | 36 => ⟨S16, .f32⟩
  | 37 => ⟨S16x1, .f32⟩
  | 38 => ⟨S16x1, .f32⟩
  | 39 => ⟨S16x1, .f32⟩
  | 40 => ⟨S16x3, .f32⟩
  | 41 => ⟨S16, .f32⟩
  | 42 => ⟨S16, .f32⟩
  | 43 => ⟨S16, .f32⟩
  | 44 => ⟨S_, .f32⟩
  | 45 => ⟨S16, .f32⟩
  | 46 => ⟨S16, .f32⟩
  | 47 => ⟨S16, .f32⟩
  | 48 => ⟨S16, .f32⟩
  | 49 => ⟨S16, .f32⟩
  | 50 => ⟨S_, .f32⟩
  | 51 => ⟨S16, .f32⟩
  | 52 => ⟨S16, .f32⟩
  | 53 => ⟨S_, .f32⟩
  | 54 => ⟨S16, .f32⟩
  | 55 => ⟨S16, .f32⟩
  | 56 => ⟨S16, .f32⟩
  | 57 => ⟨S16, .f32⟩
  | 58 => ⟨S16, .f32⟩
  | 59 => ⟨S_, .f32⟩
  | 60 => ⟨S16, .f32⟩
  | 61 => ⟨S16, .f32⟩
  | 62 => ⟨S16x1, .f32⟩
  | 63 => ⟨S16x1, .f32⟩
  | 64 => ⟨S16x1, .f32⟩
  | 65 => ⟨S16x3, .f32⟩
  | 66 => ⟨S16, .f32⟩
  | 67 => ⟨S16, .f32⟩
  | 68 => ⟨S16, .f32⟩
  | 69 => ⟨S_, .f32⟩
  | 70 => ⟨S16, .f32⟩
  | 71 => ⟨S16, .f32⟩
  | 72 => ⟨S16, .f32⟩
  | 73 => ⟨S16, .f32⟩
  | 74 => ⟨S16, .f32⟩
  | 75 => ⟨S_, .f32⟩
  | 76 => ⟨S16, .f32⟩
  | 77 => ⟨S16, .f32⟩
  | 78 => ⟨S16, .f32⟩
  | 79 => ⟨S16, .f32⟩
  | 80 => ⟨S16, .f32⟩
  | 81 => ⟨S_, .f32⟩
  | 82 => ⟨S16, .f32⟩
  | 83 => ⟨S16, .f32⟩
  | 84 => ⟨S_, .f32⟩
  | 85 => ⟨S16, .f32⟩
  | 86 => ⟨S16, .f32⟩
  | 87 => ⟨S16x1, .f32⟩
  | 88 => ⟨S16x1, .f32⟩
  | 89 => ⟨S16x1, .f32⟩
  | 90 => ⟨S16x3, .f32⟩
  | 91 => ⟨S16x1x3, .f32⟩
  | 92 => ⟨S16x1x3, .f32⟩
  | 93 => ⟨S16x1x3, .f32⟩
  | 94 => ⟨S16x3x3, .f32⟩
  | 95 => ⟨S16x3x2048, .f32⟩
  | 96 => ⟨S16x3x2048, .f32⟩
  | 97 => ⟨S16x3x2048, .f32⟩
  | 98 => ⟨S_, .f32⟩
  | 99 => ⟨S16x2048, .f32⟩
  | 100 => ⟨S16x3x2048, .f32⟩
  | 101 => ⟨S_, .f32⟩
  | 102 => ⟨S16x2048, .f32⟩
  | 103 => ⟨S16x2048x2048, .f32⟩
  | 104 => ⟨S16x2048x1, .f32⟩
  | 105 => ⟨S16x1x2048, .f32⟩
  | 106 => ⟨S16x2048x2048, .f32⟩
  | 107 => ⟨S16x2048x2048, .f32⟩
  | 108 => ⟨S16x2048x2048, .f32⟩
  | 109 => ⟨S_, .f32⟩
  | 110 => ⟨S16x2048x2048, .f32⟩
  | 111 => ⟨S16x2048x2048, .f32⟩
  | 112 => ⟨S16x2048x2048, .f32⟩
  | 113 => ⟨S_, .f32⟩
  | 114 => ⟨S16x2048, .f32⟩
  | 115 => ⟨S_, .f32⟩
  | 116 => ⟨S_, .f32⟩
  | 117 => ⟨S_, .f32⟩
  | 118 => ⟨S_, .f32⟩
  | 119 => ⟨S_, .i1⟩
  | 120 => ⟨S_, .f32⟩
  | 121 => ⟨S_, .f32⟩
  | _ => ⟨S16x4, .f32⟩

abbrev hbmTy (i : Nat) : BufTy := match i / 128 with
  | 0 => hbmTy0_0 i
  | 1 => hbmTy0_1 i
  | _ => ⟨S16x4, .f32⟩

abbrev bufTy : (tb : Table) → Fin (tcTables nBuf tb) → BufTy
  | .hbm, ⟨i, _⟩ => hbmTy i
  | _, _ => ⟨S16x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_call2_v0 : Ref sig .tc := ⟨.hbm, 16, rfl⟩
abbrev main_call2_v1 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_call3_v0 : Ref sig .tc := ⟨.hbm, 27, rfl⟩
abbrev main_call3_cst : Ref sig .tc := ⟨.hbm, 28, rfl⟩
abbrev main_call3_v1 : Ref sig .tc := ⟨.hbm, 29, rfl⟩
abbrev main_call3_v2 : Ref sig .tc := ⟨.hbm, 30, rfl⟩
abbrev main_v11 : Ref sig .tc := ⟨.hbm, 31, rfl⟩
abbrev main_cst_4 : Ref sig .tc := ⟨.hbm, 32, rfl⟩
abbrev main_call4_v0 : Ref sig .tc := ⟨.hbm, 33, rfl⟩
abbrev main_call4_v1 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_8 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_9 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_10 : Ref sig .tc := ⟨.hbm, 80, rfl⟩
abbrev main_v52 : Ref sig .tc := ⟨.hbm, 81, rfl⟩
abbrev main_v53 : Ref sig .tc := ⟨.hbm, 82, rfl⟩
abbrev main_cst_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_13 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_14 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_15 : Ref sig .tc := ⟨.hbm, 111, rfl⟩
abbrev main_v78 : Ref sig .tc := ⟨.hbm, 112, rfl⟩
abbrev main_v79 : Ref sig .tc := ⟨.hbm, 113, rfl⟩
abbrev main_cst_16 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_call5_v0 : Ref sig .tc := ⟨.hbm, 125, rfl⟩
abbrev main_call5_cst : Ref sig .tc := ⟨.hbm, 126, rfl⟩
abbrev main_call5_v1 : Ref sig .tc := ⟨.hbm, 127, rfl⟩
abbrev main_call5_v2 : Ref sig .tc := ⟨.hbm, 128, rfl⟩
abbrev main_v90 : Ref sig .tc := ⟨.hbm, 129, rfl⟩
abbrev main_cst_17 : Ref sig .tc := ⟨.hbm, 130, rfl⟩
abbrev main_call6_v0 : Ref sig .tc := ⟨.hbm, 131, rfl⟩
abbrev main_call6_v1 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_18 : Ref sig .tc := ⟨.hbm, 147, rfl⟩
abbrev main_v105 : Ref sig .tc := ⟨.hbm, 148, rfl⟩
abbrev main_v106 : Ref sig .tc := ⟨.hbm, 149, rfl⟩
abbrev main_cst_19 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_cst_20 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_21 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_cst_22 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_23 : Ref sig .tc := ⟨.hbm, 178, rfl⟩
abbrev main_v131 : Ref sig .tc := ⟨.hbm, 179, rfl⟩
abbrev main_v132 : Ref sig .tc := ⟨.hbm, 180, rfl⟩
abbrev main_cst_24 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_cst_25 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_cst_26 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_cst_27 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_cst_28 : Ref sig .tc := ⟨.hbm, 209, rfl⟩
abbrev main_v157 : Ref sig .tc := ⟨.hbm, 210, rfl⟩
abbrev main_v158 : Ref sig .tc := ⟨.hbm, 211, rfl⟩
abbrev main_cst_29 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_cst_30 : Ref sig .tc := ⟨.hbm, 226, rfl⟩
abbrev main_v172 : Ref sig .tc := ⟨.hbm, 227, rfl⟩
abbrev main_v173 : Ref sig .tc := ⟨.hbm, 228, rfl⟩
abbrev main_cst_31 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_cst_32 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_cst_33 : Ref sig .tc := ⟨.hbm, 241, rfl⟩
abbrev main_v184 : Ref sig .tc := ⟨.hbm, 242, rfl⟩
abbrev main_cst_34 : Ref sig .tc := ⟨.hbm, 243, rfl⟩
abbrev main_v185 : Ref sig .tc := ⟨.hbm, 244, rfl⟩
abbrev main_cst_35 : Ref sig .tc := ⟨.hbm, 245, rfl⟩
abbrev main_v186 : Ref sig .tc := ⟨.hbm, 246, rfl⟩
abbrev main_v187 : Ref sig .tc := ⟨.hbm, 247, rfl⟩
abbrev main_cst_36 : Ref sig .tc := ⟨.hbm, 248, rfl⟩
abbrev main_v188 : Ref sig .tc := ⟨.hbm, 249, rfl⟩

abbrev nD : Nat := 1
abbrev τ : Topo := Topo.v7x

variable {F : FTy → Type} [FloatOps F]

class Facts₀ : Prop where
  reducesTo_S16x4_S16_d1 : S16x4.ReducesTo [1] S16
  h_S_ : 0 < S_.numel
  bcast_S_S16 : S_.BroadcastsInDim S16 (![] : Fin 0 → Fin S16.rank)
  reducesTo_S16_S_d0 : S16.ReducesTo [0] S_
  bcast_S16_S16x1_0 : S16.BroadcastsInDim S16x1 (![0] : Fin 1 → Fin S16x1.rank)
  bcast_S_S16x1 : S_.BroadcastsInDim S16x1 (![] : Fin 0 → Fin S16x1.rank)
  bcast_S16x1_S16x4_0_1 : S16x1.BroadcastsInDim S16x4 (![0, 1] : Fin 2 → Fin S16x4.rank)
  slices_S16x4_S16x1_0_0 : S16x4.Slices ![0, 0] S16x1
  shapeCasts_S16x1_S16 : S16x1.ShapeCasts S16
  slices_S16x4_S16x1_0_1 : S16x4.Slices ![0, 1] S16x1
  slices_S16x4_S16x1_0_2 : S16x4.Slices ![0, 2] S16x1
  slices_S16x4_S16x1_0_3 : S16x4.Slices ![0, 3] S16x1
  concatenates_S16x1_S16x1_S16x1_S16x3_d1 : Shape.Concatenates [S16x1, S16x1, S16x1] S16x3 1
  bcast_S16x3_S16x1x3_0_2 : S16x3.BroadcastsInDim S16x1x3 (![0, 2] : Fin 2 → Fin S16x1x3.rank)
  concatenates_S16x1x3_S16x1x3_S16x1x3_S16x3x3_d1 : Shape.Concatenates [S16x1x3, S16x1x3, S16x1x3] S16x3x3 1
  reducesTo_S16x3x2048_S16x2048_d1 : S16x3x2048.ReducesTo [1] S16x2048
  bcast_S16x2048_S16x2048x1_0_1 : S16x2048.BroadcastsInDim S16x2048x1 (![0, 1] : Fin 2 → Fin S16x2048x1.rank)
  bcast_S16x2048_S16x1x2048_0_2 : S16x2048.BroadcastsInDim S16x1x2048 (![0, 2] : Fin 2 → Fin S16x1x2048.rank)
  bcast_S16x2048x1_S16x2048x2048_0_1_2 : S16x2048x1.BroadcastsInDim S16x2048x2048 (![0, 1, 2] : Fin 3 → Fin S16x2048x2048.rank)
  bcast_S16x1x2048_S16x2048x2048_0_1_2 : S16x1x2048.BroadcastsInDim S16x2048x2048 (![0, 1, 2] : Fin 3 → Fin S16x2048x2048.rank)
  bcast_S_S16x2048x2048 : S_.BroadcastsInDim S16x2048x2048 (![] : Fin 0 → Fin S16x2048x2048.rank)
  reducesTo_S16x2048x2048_S16x2048_d1 : S16x2048x2048.ReducesTo [1] S16x2048
  reducesTo_S16x2048_S_d0_1 : S16x2048.ReducesTo [0, 1] S_
  dot_S16x3x3_S16x3x2048_S16x3x2048_2_1_1_2_0_0_wf : DotDims.WF S16x3x3 S16x3x2048 S16x3x2048 [2] [1] [1] [2] [0] [0]
  dot_S16x3x2048_S16x3x2048_S16x2048x2048_1_1_2_2_0_0_wf : DotDims.WF S16x3x2048 S16x3x2048 S16x2048x2048 [1] [1] [2] [2] [0] [0]

variable [Facts₀]

def dot_S16x3x3_S16x3x2048_S16x3x2048_2_1_1_2_0_0 : DotDims S16x3x3 S16x3x2048 S16x3x2048 where
  lhsContracting := [2]
  rhsContracting := [1]
  lhsNonContracting := [1]
  rhsNonContracting := [2]
  lhsBatch := [0]
  rhsBatch := [0]
  wf := dot_S16x3x3_S16x3x2048_S16x3x2048_2_1_1_2_0_0_wf
def dot_S16x3x2048_S16x3x2048_S16x2048x2048_1_1_2_2_0_0 : DotDims S16x3x2048 S16x3x2048 S16x2048x2048 where
  lhsContracting := [1]
  rhsContracting := [1]
  lhsNonContracting := [2]
  rhsNonContracting := [2]
  lhsBatch := [0]
  rhsBatch := [0]
  wf := dot_S16x3x2048_S16x3x2048_S16x2048x2048_1_1_2_2_0_0_wf

class Facts : Prop extends Facts₀ where

variable [Facts]
-- ==== Proof.FrameK.lean ====
import proofs.«110801_j63591285785229_2_alg».proof.Proof.Gen.Kernel.Launch
import proofs.«110801_j63591285785229_2_alg».proof.Proof.Gen.Kernel.Skeleton
import proofs.«110801_j63591285785229_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! The frame of the printed program: @main is fourteen stretches of host operations, one region on a 16 x 2 grid
    with three windows, and two more stretches. The region's body loads its two input windows whole, loads its
    output window (the value unused) and stores one payload over the whole output window. So the output window's
    buffer after the body is the canonical contents of that one store over the input blocks, the argument arrays
    are written by no host operation, and the run ends with them as launched. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: the launch contents after
    the fourteen stretches of host operations that precede the region. -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13]) (fun b => m (c, b))
/-- The same read at a TensorCore reference. -/
abbrev V (c : Dev nD) (b : Ref sig .tc) : Buf (Elt F) ((c : Thread nD τ).loc b) := V0 m c (Proc.devRef .tc b)

/-! No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- @main reduces to the region continued by the two later stretches, holding the unscoped buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13] [hostOps1, hostOps1_1]
    ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub⟩
    ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh⟩ main_chain

/-! ## The stretches after the region -/

/-- The stretches after the region touch the pipeline's arrays and the bypassing buffers only: each operation's
    buffers are unscoped TensorCore references, and with nothing prefetched every such reference is one or the other. -/
theorem sfx_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
/-- They allocate nothing. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop

/-! ## Buffers no host operation writes

Each host operation writes its one result buffer; a reference that is no operation's result is written by none.
Stated per stretch for the three argument arrays (before and after the region) and for the three arrays of the
pipeline (after the region), then joined over the flattened lists. -/

/-- A buffer written by no operation of any stretch is written by no operation of their concatenation. -/
theorem not_mem_writes_flatten {b : DevRef τ sig} (opss : List (List (HloOp τ sig (Elt F))))
    (h : opss.Forall fun ops => ops.Forall fun op => b ∉ op.writes) : ∀ op ∈ opss.flatten, b ∉ op.writes := by
  intro op hop
  obtain ⟨ops, hops, hop'⟩ := List.mem_flatten.mp hop
  exact (List.forall_iff_forall_mem.mp ((List.forall_iff_forall_mem.mp h) ops hops)) op hop'

theorem hostOps0_keeps_args (r : Ref sig .tc) (hr : r = main_arg0 ∨ r = main_arg1 ∨ r = main_arg2) :
    (hostOps0 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_1_keeps_args (r : Ref sig .tc) (hr : r = main_arg0 ∨ r = main_arg1 ∨ r = main_arg2) :
    (hostOps0_1 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_2_keeps_args (r : Ref sig .tc) (hr : r = main_arg0 ∨ r = main_arg1 ∨ r = main_arg2) :
    (hostOps0_2 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_3_keeps_args (r : Ref sig .tc) (hr : r = main_arg0 ∨ r = main_arg1 ∨ r = main_arg2) :
    (hostOps0_3 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_4_keeps_args (r : Ref sig .tc) (hr : r = main_arg0 ∨ r = main_arg1 ∨ r = main_arg2) :
    (hostOps0_4 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_5_keeps_args (r : Ref sig .tc) (hr : r = main_arg0 ∨ r = main_arg1 ∨ r = main_arg2) :
    (hostOps0_5 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_6_keeps_args (r : Ref sig .tc) (hr : r = main_arg0 ∨ r = main_arg1 ∨ r = main_arg2) :
    (hostOps0_6 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_7_keeps_args (r : Ref sig .tc) (hr : r = main_arg0 ∨ r = main_arg1 ∨ r = main_arg2) :
    (hostOps0_7 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_8_keeps_args (r : Ref sig .tc) (hr : r = main_arg0 ∨ r = main_arg1 ∨ r = main_arg2) :
    (hostOps0_8 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_9_keeps_args (r : Ref sig .tc) (hr : r = main_arg0 ∨ r = main_arg1 ∨ r = main_arg2) :
    (hostOps0_9 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_10_keeps_args (r : Ref sig .tc) (hr : r = main_arg0 ∨ r = main_arg1 ∨ r = main_arg2) :
    (hostOps0_10 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_11_keeps_args (r : Ref sig .tc) (hr : r = main_arg0 ∨ r = main_arg1 ∨ r = main_arg2) :
    (hostOps0_11 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_12_keeps_args (r : Ref sig .tc) (hr : r = main_arg0 ∨ r = main_arg1 ∨ r = main_arg2) :
    (hostOps0_12 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_13_keeps_args (r : Ref sig .tc) (hr : r = main_arg0 ∨ r = main_arg1 ∨ r = main_arg2) :
    (hostOps0_13 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps1_keeps_args (r : Ref sig .tc) (hr : r = main_arg0 ∨ r = main_arg1 ∨ r = main_arg2) :
    (hostOps1 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps1_1_keeps_args (r : Ref sig .tc) (hr : r = main_arg0 ∨ r = main_arg1 ∨ r = main_arg2) :
    (hostOps1_1 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)

theorem hostOps1_keeps_arrs (w : Fin 3) :
    (hostOps1 : List (HloOp τ sig (Elt F))).Forall fun op => Proc.devRef (τ := τ) .tc (Pipeline.arrRef spec0 w) ∉ op.writes := by
  fin_cases w <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps1_1_keeps_arrs (w : Fin 3) :
    (hostOps1_1 : List (HloOp τ sig (Elt F))).Forall fun op => Proc.devRef (τ := τ) .tc (Pipeline.arrRef spec0 w) ∉ op.writes := by
  fin_cases w <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)

/-- The stretches after the region write no array of the pipeline. -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl | rfl
  · exact (List.forall_iff_forall_mem.mp (hostOps1_keeps_arrs w)) op hop
  · exact (List.forall_iff_forall_mem.mp (hostOps1_1_keeps_arrs w)) op hop

/-- An argument array is found by the region as launched. -/
theorem V_keeps_args (c : Dev nD) (r : Ref sig .tc) (hr : r = main_arg0 ∨ r = main_arg1 ∨ r = main_arg2) :
    V m c r = m ((c : Thread nD τ).loc r) :=
  StableHlo.after_of_forall_not_mem (b := Proc.devRef .tc r) _ _ (not_mem_writes_flatten _
    ⟨hostOps0_keeps_args r hr, hostOps0_1_keeps_args r hr, hostOps0_2_keeps_args r hr, hostOps0_3_keeps_args r hr, hostOps0_4_keeps_args r hr, hostOps0_5_keeps_args r hr, hostOps0_6_keeps_args r hr, hostOps0_7_keeps_args r hr, hostOps0_8_keeps_args r hr, hostOps0_9_keeps_args r hr, hostOps0_10_keeps_args r hr, hostOps0_11_keeps_args r hr, hostOps0_12_keeps_args r hr, hostOps0_13_keeps_args r hr⟩)
theorem V_main_arg0 (c : Dev nD) : V m c main_arg0 = m ((c : Thread nD τ).loc main_arg0) := V_keeps_args m c _ (.inl rfl)
theorem V_main_arg1 (c : Dev nD) : V m c main_arg1 = m ((c : Thread nD τ).loc main_arg1) := V_keeps_args m c _ (.inr (.inl rfl))
theorem V_main_arg2 (c : Dev nD) : V m c main_arg2 = m ((c : Thread nD τ).loc main_arg2) := V_keeps_args m c _ (.inr (.inr rfl))

/-- No host operation after the region writes an argument array, and none is an array of the pipeline: it ends as
    launched. -/
theorem W_keeps_args (dats : (p : Fin _) → (c : Dev nD) → Dat τ (Elt F) Unit ℕ (UR sig nD τ) ℕ (cfgs p) c) (c : Dev nD)
    (r : Ref sig .tc) (hr : r = main_arg0 ∨ r = main_arg1 ∨ r = main_arg2) (hne : ∀ w, Pipeline.arrRef spec0 w ≠ r) :
    Pipeline.afterTail₀ cfgs dats 0 (V0 m) [hostOps1, hostOps1_1] c r = m ((c : Thread nD τ).loc r) := by
  unfold Pipeline.afterTail₀
  rw [StableHlo.after_of_forall_not_mem (b := Proc.devRef .tc r) _ _ (not_mem_writes_flatten [hostOps1, hostOps1_1]
      ⟨hostOps1_keeps_args r hr, hostOps1_1_keeps_args r hr⟩),
    Pipeline.withArrays_of_ne _ c (V0 m c) _ r hne]
  exact V_keeps_args m c r hr
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg0 = m ((c : Thread nD τ).loc main_arg0) :=
  W_keeps_args m dats c _ (.inl rfl) (by decide)
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg1 = m ((c : Thread nD τ).loc main_arg1) :=
  W_keeps_args m dats c _ (.inr (.inl rfl)) (by decide)
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg2 = m ((c : Thread nD τ).loc main_arg2) :=
  W_keeps_args m dats c _ (.inr (.inr rfl)) (by decide)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (it is fetched at
    the even points only; at an odd point its block index is the previous point's), for any proof data whose array
    is `V`'s and whose body leaves the block in place. The window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's likewise (it is fetched at every point). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame claim's post from a frame run: no argument array is an array of the pipeline, so each is read by the
    post's second clause, at what the later stretches leave (`W_main_argK`), which is the launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1, hostOps1_1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's accesses -/

abbrev r0_0 : Rect S1x4x2048 := Rect.unit (s := S1x4x2048) ![0, 0, 0] S1x4x2048.size inb_S1x4x2048_S1x4x2048_0_0_0
abbrev r0_1 : Rect S1x4x1024 := Rect.unit (s := S1x4x1024) ![0, 0, 0] S1x4x1024.size inb_S1x4x1024_S1x4x1024_0_0_0
abbrev r0_2 : Rect S1x1x1024 := Rect.unit (s := S1x1x1024) ![0, 0, 0] S1x1x1024.size inb_S1x1x1024_S1x1x1024_0_0_0

/-! ## What the body leaves in the output window's buffer -/

/-- Window 2's staging buffer after the body, from the input windows' blocks: its one store, over the whole buffer. -/
def out0_2 (x0 : Vec F S1x4x2048 .f32) (x1 : Vec F S1x4x1024 .f32) : Vec F S1x1x1024 .f32 :=
  View.canon [⟨r0_2, k0_pay1 (View.ld x0 r0_0) (View.ld x1 r0_1)⟩]

/-- The one store's rectangle is the whole buffer, so it covers it. -/
theorem cover0_2 (p0 : Vec F S1x1x1024 .f32) (y : S1x1x1024.Idx) :
    ∃ pc ∈ ([⟨r0_2, p0⟩] : List (View.Piece (Elt F) S1x1x1024 .f32)), y ∈ pc.1.set :=
  View.cover_of_tiled [⟨r0_2, p0⟩] S1x1x1024.size (by rfl) y

/-! ## The body's triple -/

set_option maxHeartbeats 1000000 in
/-- The kernel body on whole staging memrefs, the inputs' at read contents `x0`, `x1` and the output's at anything,
    runs to the continuation holding the inputs' as they were and the output's at `out0_2 x0 x1`: the two loads read
    the inputs, the third reads the output buffer's prior contents (unused), and the store overwrites all of it. -/
theorem sound_kernel (c : Dev nD) (E : Set ℕ) (i : grid0.Coords)
    (arg2 : Memref sig .tc .vmem S1x4x2048 .f32) (harg2 : arg2.IsWhole)
    (arg3 : Memref sig .tc .vmem S1x4x1024 .f32) (harg3 : arg3.IsWhole)
    (arg4 : Memref sig .tc .vmem S1x1x1024 .f32) (harg4 : arg4.IsWhole)
    (x0 : Vec F S1x4x2048 .f32) (x1 : Vec F S1x4x1024 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__chamfer_min_kernel i arg2 harg2 arg3 harg3 arg4 harg4) K := by
  simp only [cc0__chamfer_min_kernel_eq_skeleton]; unfold cc0__chamfer_min_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline on core `c`: the arrays as the region finds them (`V`); after the body at
    point `t` each input's buffer at its block and the output's at `out0_2` of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents (the definition projected; `V` stays folded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the proof data give
    and every other unscoped buffer as the stretches after the region leave it. -/
theorem run_main : θ_run defs (onTc (τ := τ) (main (F := F))) (s₀ m ρ) (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

/-- info: 'Cert.Kernel.Hand.run_main' depends on axioms: [propext, Classical.choice, Quot.sound] -/
#guard_msgs in #print axioms run_main

/-- The frame claim's statement at any `F`: the program runs and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Hand

end
-- ==== Proof.FrameKI.lean ====
import proofs.«110801_j63591285785229_2_alg».proof.Proof.Gen.KernelIdeal.Launch
import proofs.«110801_j63591285785229_2_alg».proof.Proof.Gen.KernelIdeal.Skeleton
import proofs.«110801_j63591285785229_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! The frame of the printed program: @main is fourteen stretches of host operations, one region on a 16 x 2 grid
    with three windows, and two more stretches. The region's body loads its two input windows whole, loads its
    output window (the value unused) and stores one payload over the whole output window. So the output window's
    buffer after the body is the canonical contents of that one store over the input blocks, the argument arrays
    are written by no host operation, and the run ends with them as launched. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: the launch contents after
    the fourteen stretches of host operations that precede the region. -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13]) (fun b => m (c, b))
/-- The same read at a TensorCore reference. -/
abbrev V (c : Dev nD) (b : Ref sig .tc) : Buf (Elt F) ((c : Thread nD τ).loc b) := V0 m c (Proc.devRef .tc b)

/-! No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- @main reduces to the region continued by the two later stretches, holding the unscoped buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13] [hostOps1, hostOps1_1]
    ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub⟩
    ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh⟩ main_chain

/-! ## The stretches after the region -/

/-- The stretches after the region touch the pipeline's arrays and the bypassing buffers only: each operation's
    buffers are unscoped TensorCore references, and with nothing prefetched every such reference is one or the other. -/
theorem sfx_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
/-- They allocate nothing. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop

/-! ## Buffers no host operation writes

Each host operation writes its one result buffer; a reference that is no operation's result is written by none.
Stated per stretch for the three argument arrays (before and after the region) and for the three arrays of the
pipeline (after the region), then joined over the flattened lists. -/

/-- A buffer written by no operation of any stretch is written by no operation of their concatenation. -/
theorem not_mem_writes_flatten {b : DevRef τ sig} (opss : List (List (HloOp τ sig (Elt F))))
    (h : opss.Forall fun ops => ops.Forall fun op => b ∉ op.writes) : ∀ op ∈ opss.flatten, b ∉ op.writes := by
  intro op hop
  obtain ⟨ops, hops, hop'⟩ := List.mem_flatten.mp hop
  exact (List.forall_iff_forall_mem.mp ((List.forall_iff_forall_mem.mp h) ops hops)) op hop'

theorem hostOps0_keeps_args (r : Ref sig .tc) (hr : r = main_arg0 ∨ r = main_arg1 ∨ r = main_arg2) :
    (hostOps0 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_1_keeps_args (r : Ref sig .tc) (hr : r = main_arg0 ∨ r = main_arg1 ∨ r = main_arg2) :
    (hostOps0_1 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_2_keeps_args (r : Ref sig .tc) (hr : r = main_arg0 ∨ r = main_arg1 ∨ r = main_arg2) :
    (hostOps0_2 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_3_keeps_args (r : Ref sig .tc) (hr : r = main_arg0 ∨ r = main_arg1 ∨ r = main_arg2) :
    (hostOps0_3 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_4_keeps_args (r : Ref sig .tc) (hr : r = main_arg0 ∨ r = main_arg1 ∨ r = main_arg2) :
    (hostOps0_4 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_5_keeps_args (r : Ref sig .tc) (hr : r = main_arg0 ∨ r = main_arg1 ∨ r = main_arg2) :
    (hostOps0_5 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_6_keeps_args (r : Ref sig .tc) (hr : r = main_arg0 ∨ r = main_arg1 ∨ r = main_arg2) :
    (hostOps0_6 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_7_keeps_args (r : Ref sig .tc) (hr : r = main_arg0 ∨ r = main_arg1 ∨ r = main_arg2) :
    (hostOps0_7 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_8_keeps_args (r : Ref sig .tc) (hr : r = main_arg0 ∨ r = main_arg1 ∨ r = main_arg2) :
    (hostOps0_8 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_9_keeps_args (r : Ref sig .tc) (hr : r = main_arg0 ∨ r = main_arg1 ∨ r = main_arg2) :
    (hostOps0_9 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_10_keeps_args (r : Ref sig .tc) (hr : r = main_arg0 ∨ r = main_arg1 ∨ r = main_arg2) :
    (hostOps0_10 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_11_keeps_args (r : Ref sig .tc) (hr : r = main_arg0 ∨ r = main_arg1 ∨ r = main_arg2) :
    (hostOps0_11 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_12_keeps_args (r : Ref sig .tc) (hr : r = main_arg0 ∨ r = main_arg1 ∨ r = main_arg2) :
    (hostOps0_12 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_13_keeps_args (r : Ref sig .tc) (hr : r = main_arg0 ∨ r = main_arg1 ∨ r = main_arg2) :
    (hostOps0_13 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps1_keeps_args (r : Ref sig .tc) (hr : r = main_arg0 ∨ r = main_arg1 ∨ r = main_arg2) :
    (hostOps1 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps1_1_keeps_args (r : Ref sig .tc) (hr : r = main_arg0 ∨ r = main_arg1 ∨ r = main_arg2) :
    (hostOps1_1 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)

theorem hostOps1_keeps_arrs (w : Fin 3) :
    (hostOps1 : List (HloOp τ sig (Elt F))).Forall fun op => Proc.devRef (τ := τ) .tc (Pipeline.arrRef spec0 w) ∉ op.writes := by
  fin_cases w <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps1_1_keeps_arrs (w : Fin 3) :
    (hostOps1_1 : List (HloOp τ sig (Elt F))).Forall fun op => Proc.devRef (τ := τ) .tc (Pipeline.arrRef spec0 w) ∉ op.writes := by
  fin_cases w <;>
  · simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)

/-- The stretches after the region write no array of the pipeline. -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl | rfl
  · exact (List.forall_iff_forall_mem.mp (hostOps1_keeps_arrs w)) op hop
  · exact (List.forall_iff_forall_mem.mp (hostOps1_1_keeps_arrs w)) op hop

/-- An argument array is found by the region as launched. -/
theorem V_keeps_args (c : Dev nD) (r : Ref sig .tc) (hr : r = main_arg0 ∨ r = main_arg1 ∨ r = main_arg2) :
    V m c r = m ((c : Thread nD τ).loc r) :=
  StableHlo.after_of_forall_not_mem (b := Proc.devRef .tc r) _ _ (not_mem_writes_flatten _
    ⟨hostOps0_keeps_args r hr, hostOps0_1_keeps_args r hr, hostOps0_2_keeps_args r hr, hostOps0_3_keeps_args r hr, hostOps0_4_keeps_args r hr, hostOps0_5_keeps_args r hr, hostOps0_6_keeps_args r hr, hostOps0_7_keeps_args r hr, hostOps0_8_keeps_args r hr, hostOps0_9_keeps_args r hr, hostOps0_10_keeps_args r hr, hostOps0_11_keeps_args r hr, hostOps0_12_keeps_args r hr, hostOps0_13_keeps_args r hr⟩)
theorem V_main_arg0 (c : Dev nD) : V m c main_arg0 = m ((c : Thread nD τ).loc main_arg0) := V_keeps_args m c _ (.inl rfl)
theorem V_main_arg1 (c : Dev nD) : V m c main_arg1 = m ((c : Thread nD τ).loc main_arg1) := V_keeps_args m c _ (.inr (.inl rfl))
theorem V_main_arg2 (c : Dev nD) : V m c main_arg2 = m ((c : Thread nD τ).loc main_arg2) := V_keeps_args m c _ (.inr (.inr rfl))

/-- No host operation after the region writes an argument array, and none is an array of the pipeline: it ends as
    launched. -/
theorem W_keeps_args (dats : (p : Fin _) → (c : Dev nD) → Dat τ (Elt F) Unit ℕ (UR sig nD τ) ℕ (cfgs p) c) (c : Dev nD)
    (r : Ref sig .tc) (hr : r = main_arg0 ∨ r = main_arg1 ∨ r = main_arg2) (hne : ∀ w, Pipeline.arrRef spec0 w ≠ r) :
    Pipeline.afterTail₀ cfgs dats 0 (V0 m) [hostOps1, hostOps1_1] c r = m ((c : Thread nD τ).loc r) := by
  unfold Pipeline.afterTail₀
  rw [StableHlo.after_of_forall_not_mem (b := Proc.devRef .tc r) _ _ (not_mem_writes_flatten [hostOps1, hostOps1_1]
      ⟨hostOps1_keeps_args r hr, hostOps1_1_keeps_args r hr⟩),
    Pipeline.withArrays_of_ne _ c (V0 m c) _ r hne]
  exact V_keeps_args m c r hr
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg0 = m ((c : Thread nD τ).loc main_arg0) :=
  W_keeps_args m dats c _ (.inl rfl) (by decide)
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg1 = m ((c : Thread nD τ).loc main_arg1) :=
  W_keeps_args m dats c _ (.inr (.inl rfl)) (by decide)
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg2 = m ((c : Thread nD τ).loc main_arg2) :=
  W_keeps_args m dats c _ (.inr (.inr rfl)) (by decide)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (it is fetched at
    the even points only; at an odd point its block index is the previous point's), for any proof data whose array
    is `V`'s and whose body leaves the block in place. The window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's likewise (it is fetched at every point). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame claim's post from a frame run: no argument array is an array of the pipeline, so each is read by the
    post's second clause, at what the later stretches leave (`W_main_argK`), which is the launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1, hostOps1_1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's accesses -/

abbrev r0_0 : Rect S1x4x2048 := Rect.unit (s := S1x4x2048) ![0, 0, 0] S1x4x2048.size inb_S1x4x2048_S1x4x2048_0_0_0
abbrev r0_1 : Rect S1x4x1024 := Rect.unit (s := S1x4x1024) ![0, 0, 0] S1x4x1024.size inb_S1x4x1024_S1x4x1024_0_0_0
abbrev r0_2 : Rect S1x1x1024 := Rect.unit (s := S1x1x1024) ![0, 0, 0] S1x1x1024.size inb_S1x1x1024_S1x1x1024_0_0_0

/-! ## What the body leaves in the output window's buffer -/

/-- Window 2's staging buffer after the body, from the input windows' blocks: its one store, over the whole buffer. -/
def out0_2 (x0 : Vec F S1x4x2048 .f32) (x1 : Vec F S1x4x1024 .f32) : Vec F S1x1x1024 .f32 :=
  View.canon [⟨r0_2, k0_pay1 (View.ld x0 r0_0) (View.ld x1 r0_1)⟩]

/-- The one store's rectangle is the whole buffer, so it covers it. -/
theorem cover0_2 (p0 : Vec F S1x1x1024 .f32) (y : S1x1x1024.Idx) :
    ∃ pc ∈ ([⟨r0_2, p0⟩] : List (View.Piece (Elt F) S1x1x1024 .f32)), y ∈ pc.1.set :=
  View.cover_of_tiled [⟨r0_2, p0⟩] S1x1x1024.size (by rfl) y

/-! ## The body's triple -/

set_option maxHeartbeats 1000000 in
/-- The kernel body on whole staging memrefs, the inputs' at read contents `x0`, `x1` and the output's at anything,
    runs to the continuation holding the inputs' as they were and the output's at `out0_2 x0 x1`: the two loads read
    the inputs, the third reads the output buffer's prior contents (unused), and the store overwrites all of it. -/
theorem sound_kernel (c : Dev nD) (E : Set ℕ) (i : grid0.Coords)
    (arg2 : Memref sig .tc .vmem S1x4x2048 .f32) (harg2 : arg2.IsWhole)
    (arg3 : Memref sig .tc .vmem S1x4x1024 .f32) (harg3 : arg3.IsWhole)
    (arg4 : Memref sig .tc .vmem S1x1x1024 .f32) (harg4 : arg4.IsWhole)
    (x0 : Vec F S1x4x2048 .f32) (x1 : Vec F S1x4x1024 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__chamfer_min_kernel i arg2 harg2 arg3 harg3 arg4 harg4) K := by
  simp only [cc0__chamfer_min_kernel_eq_skeleton]; unfold cc0__chamfer_min_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline on core `c`: the arrays as the region finds them (`V`); after the body at
    point `t` each input's buffer at its block and the output's at `out0_2` of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents (the definition projected; `V` stays folded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the proof data give
    and every other unscoped buffer as the stretches after the region leave it. -/
theorem run_main : θ_run defs (onTc (τ := τ) (main (F := F))) (s₀ m ρ) (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

/-- info: 'Cert.KernelIdeal.Hand.run_main' depends on axioms: [propext, Classical.choice, Quot.sound] -/
#guard_msgs in #print axioms run_main

/-- The frame claim's statement at any `F`: the program runs and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Hand

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibMinReduce.lean ====
/-
  A reusable lemma group: a minimum taken along one axis, read at an entry through its lower bounds.

  At the ideal instance `minimumf` is the minimum of the extended reals, so a `vector.multi_reduction <minimumf>` over one
  axis and a host `stablehlo.reduce` with a `minimum` body over one axis are, at a reduced index `j`, the fold of `min`
  from the starting value over the coordinates `k` of the reduced axis, read at `lift j k` (the index `j` with `k`
  inserted). A fold of `min` is best used through its universal property,

      z ≤ fold min b f  ↔  z ≤ b ∧ ∀ k, z ≤ f k,

  which forgets the order and the grouping of the fold; two extended reals with the same lower bounds are equal
  (`eq_of_forall_le_iff`). Generic in the shapes, the axis and the float format. The last section spells the common cases by
  coordinates: the row and the column minima of an [a, b] block in a kernel, and a host minimum over the middle or the last
  axis of an [a, b, c] array.
-/
import Idealize.ShloMosaic.PureOps.Ideal.Laws
import Idealize.ShloMosaic.Lib.ValueIdx

noncomputable section

namespace Cert.MinReduce

open Idealize.ShloMosaic Idealize.ShloMosaic.ValueIdx

variable {φ : FTy}

/-- The lower bounds of a fold of `min` over a whole finite type. -/
theorem le_fold_min_univ_iff {ι : Type} [Fintype ι] (b : EReal) (f : ι → EReal) (z : EReal) :
    z ≤ (Finset.univ : Finset ι).fold min b f ↔ z ≤ b ∧ ∀ i : ι, z ≤ f i := by
  rw [Finset.le_fold_min]
  exact and_congr_right fun _ => ⟨fun h i => h i (Finset.mem_univ _), fun h i _ => h i⟩

/-- Two extended reals with the same lower bounds are equal. -/
theorem eq_of_forall_le_iff {x y : EReal} (h : ∀ z : EReal, z ≤ x ↔ z ≤ y) : x = y :=
  le_antisymm ((h x).mp le_rfl) ((h y).mpr le_rfl)

/-- A float `vector.multi_reduction <minimumf>` over one axis, read at `Ideal`: the fold of `min` from the accumulator's
    value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Its lower bounds: below the accumulator's value and below every entry along the axis. -/
theorem le_multiReduction_minimumf_iff {s t : Shape} {a : Fin s.rank} (src : FVec Ideal s φ) (acc : BitVec φ.bits)
    (h : s.Reduces [a] t) (hφ : FKind.Formats φ) (hacc : acc = FKind.minimumf.neutral φ hφ) (j : t.Idx) (z : EReal) :
    z ≤ multiReduction .minimumf [a] t src acc h hφ hacc j
      ↔ z ≤ Ideal.ofBits φ acc ∧ ∀ k : Fin (s.size a), z ≤ src (h.lift j k) := by
  rw [multiReduction_minimumf_single]
  exact le_fold_min_univ_iff _ _ z

/-- A host `stablehlo.reduce` with a `minimum` body over one axis, read at `Ideal`: its lower bounds are those of the
    initial value's element and of every entry along the axis. (`h'` is the host operation's shape fact, `h` the fact at
    the same shapes that names the inserted index.) -/
theorem le_hostReduce_minimumf_iff {s t u : Shape} {a : Fin s.rank} (x : s.Idx → EReal) (init : u.Idx → EReal)
    (h' : s.ReducesTo [a] t) (h : s.Reduces [a] t) (hu : 0 < u.numel) (j : t.Idx) (z : EReal) :
    z ≤ Host.reduce (FloatOps.minimumf (F := Ideal) (φ := φ)) x init h' hu j
      ↔ z ≤ init (Shape.Idx.first hu) ∧ ∀ k : Fin (s.size a), z ≤ x (h.lift j k) := by
  rw [Host.reduce_eq_fold_single (FloatOps.minimumf (F := Ideal) (φ := φ)) x init h' h hu j]
  exact le_fold_min_univ_iff _ _ z

/-! ## By coordinates -/

/-- The minimum along row `r` of an [a, b] block: below the accumulator's value and below every entry of the row. -/
theorem le_rowMin_iff {a b : Nat} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (r : Fin a) (z : EReal) :
    z ≤ multiReduction .minimumf [1] ⟨1, ![a]⟩ src acc h hφ hacc (ix1 r)
      ↔ z ≤ Ideal.ofBits φ acc ∧ ∀ m : Fin b, z ≤ src (ix2 r m) := by
  rw [le_multiReduction_minimumf_iff]
  have e : ∀ m : Fin b, h.lift (ix1 r) m = ix2 r m := fun m =>
    funext fun ax => Fin.ext (by match ax with | ⟨0, _⟩ => rfl | ⟨1, _⟩ => rfl)
  exact and_congr_right fun _ => ⟨fun H m => e m ▸ H m, fun H m => (e m).symm ▸ H m⟩

/-- The minimum down column `m` of an [a, b] block: below the accumulator's value and below every entry of the column. -/
theorem le_colMin_iff {a b : Nat} (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ)
    (m : Fin b) (z : EReal) :
    z ≤ multiReduction .minimumf [0] ⟨1, ![b]⟩ src acc h hφ hacc (ix1 m)
      ↔ z ≤ Ideal.ofBits φ acc ∧ ∀ r : Fin a, z ≤ src (ix2 r m) := by
  rw [le_multiReduction_minimumf_iff]
  have e : ∀ r : Fin a, h.lift (ix1 m) r = ix2 r m := fun r =>
    funext fun ax => Fin.ext (by match ax with | ⟨0, _⟩ => rfl | ⟨1, _⟩ => rfl)
  exact and_congr_right fun _ => ⟨fun H r => e r ▸ H r, fun H r => (e r).symm ▸ H r⟩

/-- A host minimum over the MIDDLE axis of an [a, b, c] array at (i, k): below the initial value and below every entry
    (i, j, k). -/
theorem le_hostMin_mid_iff {a b c : Nat} {u : Shape} (x : (⟨3, ![a, b, c]⟩ : Shape).Idx → EReal) (init : u.Idx → EReal)
    (h' : (⟨3, ![a, b, c]⟩ : Shape).ReducesTo [1] ⟨2, ![a, c]⟩) (h : (⟨3, ![a, b, c]⟩ : Shape).Reduces [1] ⟨2, ![a, c]⟩)
    (hu : 0 < u.numel) (i : Fin a) (k : Fin c) (z : EReal) :
    z ≤ Host.reduce (FloatOps.minimumf (F := Ideal) (φ := φ)) x init h' hu (ix2 i k)
      ↔ z ≤ init (Shape.Idx.first hu) ∧ ∀ j : Fin b, z ≤ x (ix3 i j k) := by
  rw [le_hostReduce_minimumf_iff x init h' h hu]
  have e : ∀ j : Fin b, h.lift (ix2 i k) j = ix3 i j k := fun j =>
    funext fun ax => Fin.ext (by match ax with | ⟨0, _⟩ => rfl | ⟨1, _⟩ => rfl | ⟨2, _⟩ => rfl)
  exact and_congr_right fun _ => ⟨fun H j => e j ▸ H j, fun H j => (e j).symm ▸ H j⟩

/-- A host minimum over the LAST axis of an [a, b, c] array at (i, j): below the initial value and below every entry
    (i, j, k). -/
theorem le_hostMin_last_iff {a b c : Nat} {u : Shape} (x : (⟨3, ![a, b, c]⟩ : Shape).Idx → EReal) (init : u.Idx → EReal)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) (z : EReal) :
    z ≤ Host.reduce (FloatOps.minimumf (F := Ideal) (φ := φ)) x init h' hu (ix2 i j)
      ↔ z ≤ init (Shape.Idx.first hu) ∧ ∀ k : Fin c, z ≤ x (ix3 i j k) := by
  rw [le_hostReduce_minimumf_iff x init h' h hu]
  have e : ∀ k : Fin c, h.lift (ix2 i j) k = ix3 i j k := fun k =>
    funext fun ax => Fin.ext (by match ax with | ⟨0, _⟩ => rfl | ⟨1, _⟩ => rfl | ⟨2, _⟩ => rfl)
  exact and_congr_right fun _ => ⟨fun H k => e k ▸ H k, fun H k => (e k).symm ▸ H k⟩

end Cert.MinReduce

end
-- ==== Proof.PayloadAt.lean ====
/-
  The kernel body's stored value read at an entry.  From a [1, 4, 2048] block g (the augmented target cloud of one
  batch: row 0 the squared norms, rows 1–3 the coordinates times −2) and a [1, 4, 1024] block p (a tile of the augmented
  predicted cloud: row 0 ones, rows 1–3 the coordinates) the body stores, at lane q,
      min over n of Σ_{k<4} g[0,k,n] · p[0,k,q]   +   ( p[0,1,q]² + p[0,2,q]² ) + p[0,3,q]²,
  the minimum taken from the word of +∞: a transposed 2048×4 by 4×1024 product into zeros, a minimum down each column,
  and the predicted point's squared norm added after the minimum.
-/
import proofs.«110801_j63591285785229_2_alg».proof.Proof.Gen.KernelIdeal.Skeleton
import proofs.«110801_j63591285785229_2_alg».proof.Proof.LibMatmulNN
import proofs.«110801_j63591285785229_2_alg».proof.Proof.LibMinReduce
import Idealize.ShloMosaic.Lib.ValueLayout
import Idealize.ShloMosaic.Lib.Pipeline.Value

noncomputable section

namespace Cert.Chamfer.Pay

open Cert.KernelIdeal Cert.KernelIdeal.Gen
open Idealize.ShloMosaic Idealize.ShloMosaic.ValueIdx

/-- A length-n vector viewed as a [1, 1, n] block reads, at (u, v, q), the vector's entry q. -/
theorem cast_11n_apply {n : ℕ} {α : Type} (x : (⟨1, ![n]⟩ : Shape).Idx → α)
    (h : (⟨1, ![n]⟩ : Shape).ShapeCasts ⟨3, ![1, 1, n]⟩) (u v : Fin 1) (q : Fin n) :
    shapeCast ⟨3, ![1, 1, n]⟩ x h (ix3 u v q) = x (ix1 q) :=
  shapeCast_apply x h _ _ (by
    have hu : u.val = 0 := by omega
    have hv : v.val = 0 := by omega
    rw [Shape.rowMajor_val_one, Shape.rowMajor_val_three]
    show q.val = (u.val * 1 + v.val) * n + q.val
    rw [hu, hv]; omega)

/-- Row c of a [4, b] matrix, cut out as a [1, b] slice and viewed as a vector, reads the matrix at (c, q). -/
theorem row_apply {b : ℕ} {α : Type} (x : (⟨2, ![4, b]⟩ : Shape).Idx → α) (o : ℕ) (c : Fin 4) (ho : c.val = o)
    (hs : (⟨2, ![4, b]⟩ : Shape).Slices ![o, 0] ⟨2, ![1, b]⟩) (hc : (⟨2, ![1, b]⟩ : Shape).ShapeCasts ⟨1, ![b]⟩) (q : Fin b) :
    shapeCast ⟨1, ![b]⟩ (extractStridedSlice ⟨2, ![1, b]⟩ ![o, 0] x hs) hc (ix1 q) = x (ix2 c q) :=
  (shapeCast_1a_a_apply _ hc q).trans (slice2_axis0_apply o x hs (0 : Fin 1) q c (by rw [ho]; rfl))

/-- The minimum down column q of a product into zeros: the fold of `min`, from the accumulator's value, of the inner
    products of the rows of the left operand with column q of the right one. -/
theorem colMin_matmul_apply (D : DotDims ⟨2, ![2048, 4]⟩ ⟨2, ![4, 1024]⟩ ⟨2, ![2048, 1024]⟩) (hD : D = DotDims.plain 2048 4 1024)
    (prec : Option ContractPrecision) (lhs : FVec Ideal ⟨2, ![2048, 4]⟩ .f32) (rhs : FVec Ideal ⟨2, ![4, 1024]⟩ .f32)
    (acc : BitVec FTy.f32.bits) (h : (⟨2, ![2048, 1024]⟩ : Shape).Reduces [0] ⟨1, ![1024]⟩) (hφ : FKind.Formats .f32)
    (hacc : acc = FKind.minimumf.neutral .f32 hφ) (q : Fin 1024) :
    multiReduction .minimumf [0] ⟨1, ![1024]⟩
        (FloatOps.matmul D prec lhs rhs (constant (F := Ideal) ⟨2, ![2048, 1024]⟩ .f32 0x00000000#32)) acc h hφ hacc (ix1 q)
      = (Finset.univ : Finset (Fin 2048)).fold min (Ideal.ofBits .f32 acc)
          (fun n => ∑ k : Fin 4, lhs (ix2 n k) * rhs (ix2 k q)) := by
  refine (Cert.MinReduce.multiReduction_minimumf_single _ acc h hφ hacc (ix1 q)).trans ?_
  have e : ∀ n : Fin 2048, h.lift (ix1 q) n = ix2 n q := fun n =>
    funext fun ax => Fin.ext (by match ax with | ⟨0, _⟩ => rfl | ⟨1, _⟩ => rfl)
  refine congrArg (fun f => (Finset.univ : Finset (Fin 2048)).fold min (Ideal.ofBits .f32 acc) f) (funext fun n => ?_)
  show FloatOps.matmul D prec lhs rhs (constant (F := Ideal) ⟨2, ![2048, 1024]⟩ .f32 0x00000000#32) (h.lift (ix1 q) n) = _
  rw [e n]
  exact Cert.MatmulNN.matmul_zero_apply D hD prec lhs rhs n q

/-- The stored value at lane q (the header's formula). -/
theorem pay_apply (x0 : Vec Ideal S1x4x2048 .f32) (x2 : Vec Ideal S1x4x1024 .f32) (q : Fin 1024) :
    k0_pay1 (F := Ideal) x0 x2 (ix3 (0 : Fin 1) (0 : Fin 1) q)
      = (Finset.univ : Finset (Fin 2048)).fold min (Ideal.ofBits .f32 0x7F800000#32)
          (fun n => ∑ k : Fin 4, x0 (ix3 (0 : Fin 1) k n) * x2 (ix3 (0 : Fin 1) k q))
        + ((x2 (ix3 (0 : Fin 1) (1 : Fin 4) q) * x2 (ix3 (0 : Fin 1) (1 : Fin 4) q)
            + x2 (ix3 (0 : Fin 1) (2 : Fin 4) q) * x2 (ix3 (0 : Fin 1) (2 : Fin 4) q))
          + x2 (ix3 (0 : Fin 1) (3 : Fin 4) q) * x2 (ix3 (0 : Fin 1) (3 : Fin 4) q)) := by
  unfold k0_pay1
  refine (cast_11n_apply _ _ 0 0 q).trans ?_
  refine (addf_apply _ _ _).trans ?_
  refine congrArg₂ (· + ·) ?_ ?_
  · refine (colMin_matmul_apply dot_S2048x4_S4x1024_S2048x1024_1_0_0_1_n_n rfl _ _ _ _ _ _ _ q).trans ?_
    refine congrArg (fun f => (Finset.univ : Finset (Fin 2048)).fold min (Ideal.ofBits .f32 0x7F800000#32) f)
      (funext fun n => Finset.sum_congr rfl fun k _ => ?_)
    exact congrArg₂ (· * ·)
      ((transpose_ix2_apply _ _ n k).trans (shapeCast_1ab_ab_apply x0 _ k n))
      (shapeCast_1ab_ab_apply x2 _ k q)
  · refine (addf_apply _ _ _).trans ?_
    refine congrArg₂ (· + ·) ?_ ?_
    · refine (addf_apply _ _ _).trans ?_
      refine congrArg₂ (· + ·) ?_ ?_
      · refine (mulf_apply _ _ _).trans ?_
        exact congrArg₂ (· * ·)
          ((row_apply _ 1 (1 : Fin 4) rfl _ _ q).trans (shapeCast_1ab_ab_apply x2 _ _ q))
          ((row_apply _ 1 (1 : Fin 4) rfl _ _ q).trans (shapeCast_1ab_ab_apply x2 _ _ q))
      · refine (mulf_apply _ _ _).trans ?_
        exact congrArg₂ (· * ·)
          ((row_apply _ 2 (2 : Fin 4) rfl _ _ q).trans (shapeCast_1ab_ab_apply x2 _ _ q))
          ((row_apply _ 2 (2 : Fin 4) rfl _ _ q).trans (shapeCast_1ab_ab_apply x2 _ _ q))
    · refine (mulf_apply _ _ _).trans ?_
      exact congrArg₂ (· * ·)
        ((row_apply _ 3 (3 : Fin 4) rfl _ _ q).trans (shapeCast_1ab_ab_apply x2 _ _ q))
        ((row_apply _ 3 (3 : Fin 4) rfl _ _ q).trans (shapeCast_1ab_ab_apply x2 _ _ q))

end Cert.Chamfer.Pay

end
-- ==== Proof.KernelValue.lean ====
/-
  What the region leaves in its output array, as ONE function of the two arrays it reads.  The grid point (b, j)
  takes the whole augmented target cloud of batch b and the j-th tile of 1024 predicted points, and writes the tile's
  nearest-neighbour values; the 32 tiles are disjoint and fill the [16, 1, 2048] output.  So the output at (b, 0, m) is
      min over n of Σ_{k<4} A₀[b,k,n]·A₁[b,k,m]  +  ( A₁[b,1,m]² + A₁[b,2,m]² ) + A₁[b,3,m]².
-/
import proofs.«110801_j63591285785229_2_alg».proof.Proof.FrameKI
import proofs.«110801_j63591285785229_2_alg».proof.Proof.PayloadAt
import Idealize.ShloMosaic.Lib.Pipeline.Value

set_option maxRecDepth 16384

noncomputable section

namespace Cert.Chamfer.KVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

/-- The nearest-neighbour value of predicted point m of batch b, from the augmented clouds. -/
def kval (A0 A1 : S16x4x2048.Idx → EReal) (b : Fin 16) (m : Fin 2048) : EReal :=
  (Finset.univ : Finset (Fin 2048)).fold min (Ideal.ofBits .f32 0x7F800000#32)
      (fun n => ∑ k : Fin 4, A0 (ix3 b k n) * A1 (ix3 b k m))
    + ((A1 (ix3 b (1 : Fin 4) m) * A1 (ix3 b (1 : Fin 4) m) + A1 (ix3 b (2 : Fin 4) m) * A1 (ix3 b (2 : Fin 4) m))
      + A1 (ix3 b (3 : Fin 4) m) * A1 (ix3 b (3 : Fin 4) m))

/-- The output array: `kval` at the index's batch and point. -/
def KArr (A0 A1 : S16x4x2048.Idx → EReal) : S16x1x2048.Idx → EReal :=
  fun i => kval A0 A1 ⟨(i 0).val, (i 0).isLt⟩ ⟨(i 2).val, (i 2).isLt⟩

/-- One block: if the loaded blocks are batch b of A₀ and the tile of A₁ starting at point o, the stored value at lane q
    is `kval` at (b, o + q). -/
theorem block_eq (A0 A1 : S16x4x2048.Idx → EReal) (x0 : Vec Ideal S1x4x2048 .f32) (x1 : Vec Ideal S1x4x1024 .f32)
    (b : Fin 16) (o : ℕ) (ho : o + 1024 ≤ 2048)
    (h0 : ∀ (k : Fin 4) (n : Fin 2048), x0 (ix3 (0 : Fin 1) k n) = A0 (ix3 b k n))
    (h1 : ∀ (k : Fin 4) (q : Fin 1024), x1 (ix3 (0 : Fin 1) k q) = A1 (ix3 b k ⟨o + q.val, by omega⟩))
    (q : Fin 1024) :
    k0_pay1 (F := Ideal) x0 x1 (ix3 (0 : Fin 1) (0 : Fin 1) q) = kval A0 A1 b ⟨o + q.val, by omega⟩ := by
  refine (Cert.Chamfer.Pay.pay_apply x0 x1 q).trans ?_
  unfold kval
  simp only [h0, h1]

variable (m : (ℓ : Loc nD τ sig) → Buf (Elt Ideal) ℓ)

theorem hz3 : (![0, 0, 0] : Fin 3 → Nat) = fun _ => 0 := funext fun a => by fin_cases a <;> rfl

/-- The index maps, decided over the grid: the target block is batch b whole, the predicted tile and the output tile
    sit at the same batch and the same tile. -/
theorem idx_facts : ∀ t : Fin cfg0.N, win0_0.index t (0 : Fin 3) = win0_2.index t (0 : Fin 3)
    ∧ win0_0.index t (1 : Fin 3) = 0 ∧ win0_0.index t (2 : Fin 3) = 0
    ∧ win0_1.index t (0 : Fin 3) = win0_2.index t (0 : Fin 3) ∧ win0_1.index t (1 : Fin 3) = 0
    ∧ win0_1.index t (2 : Fin 3) = win0_2.index t (2 : Fin 3)
    ∧ win0_2.index t (1 : Fin 3) = 0 ∧ win0_2.index t (0 : Fin 3) ≤ 15 ∧ win0_2.index t (2 : Fin 3) ≤ 1 :=
  (by decide +kernel : ∀ t : Fin grid0.N, _)

/-- Every (batch, tile) pair is some grid point's. -/
theorem idx_onto : ∀ (q0 : Fin 16) (q2 : Fin 2), ∃ t : Fin cfg0.N, win0_2.index t = ![q0.val, 0, q2.val] :=
  (by decide +kernel : ∀ (q0 : Fin 16) (q2 : Fin 2), ∃ t : Fin grid0.N, win0_2.index t = ![q0.val, 0, q2.val])

/-- What grid point t writes back is block t of `KArr` of the two arrays as the region finds them. -/
theorem flushed_eq (c : Dev nD) (t : Fin cfg0.N) :
    (dats m 0 c).flushed 2 t
      = ((cfg0.win 2).blk t).view.read (Elt Ideal) (KArr (V m c main_v198) (V m c main_v204)) := by
  show (cfg0.win 2).cut (grid0.coords t) ((dats m 0 c).after 2 t) = _
  rw [after0_2]
  unfold out0_2
  rw [View.canon_unit_zero hz3]
  simp only [View.ld_unit_zero (S := S1x4x2048) hz3, View.ld_unit_zero (S := S1x4x1024) hz3]
  obtain ⟨e0, e1, e2, e3, e4, e5, e6, e7, e8⟩ := idx_facts t
  funext j
  have hj0 : (j 0).val = 0 := by
    have h : (j 0).val < 1 := ((cfg0.win 2).xinj (grid0.coords t) j 0).isLt
    omega
  have hj1 : (j 1).val = 0 := by
    have h : (j 1).val < 1 := ((cfg0.win 2).xinj (grid0.coords t) j 1).isLt
    omega
  have hj2 : (j 2).val < 1024 := ((cfg0.win 2).xinj (grid0.coords t) j 2).isLt
  have hj : (cfg0.win 2).xinj (grid0.coords t) j = ix3 (0 : Fin 1) (0 : Fin 1) (⟨(j 2).val, hj2⟩ : Fin 1024) :=
    funext fun a => Fin.ext (by
      match a with
      | ⟨0, _⟩ => exact hj0
      | ⟨1, _⟩ => exact hj1
      | ⟨2, _⟩ => rfl)
  show k0_pay1 (F := Ideal) (iblk m c 0 t) (iblk m c 1 t) ((cfg0.win 2).xinj (grid0.coords t) j)
    = KArr (V m c main_v198) (V m c main_v204) (((cfg0.win 2).blk t).view.emb j)
  rw [hj]
  refine (block_eq (V m c main_v198) (V m c main_v204) _ _ ⟨win0_2.index t (0 : Fin 3), by omega⟩
    (win0_2.index t (2 : Fin 3) * 1024) (by omega) ?_ ?_ ⟨(j 2).val, hj2⟩).trans ?_
  · intro k n
    show V m c main_v198 (((cfg0.win 0).blk t).view.emb (ix3 (0 : Fin 1) k n)) = _
    refine congrArg _ (funext fun a => Fin.ext ?_)
    match a with
    | ⟨0, _⟩ => show win0_0.index t (0 : Fin 3) * 1 + 1 * 0 = win0_2.index t (0 : Fin 3); omega
    | ⟨1, _⟩ => show win0_0.index t (1 : Fin 3) * 4 + 1 * k.val = k.val; omega
    | ⟨2, _⟩ => show win0_0.index t (2 : Fin 3) * 2048 + 1 * n.val = n.val; omega
  · intro k q'
    show V m c main_v204 (((cfg0.win 1).blk t).view.emb (ix3 (0 : Fin 1) k q')) = _
    refine congrArg _ (funext fun a => Fin.ext ?_)
    match a with
    | ⟨0, _⟩ => show win0_1.index t (0 : Fin 3) * 1 + 1 * 0 = win0_2.index t (0 : Fin 3); omega
    | ⟨1, _⟩ => show win0_1.index t (1 : Fin 3) * 4 + 1 * k.val = k.val; omega
    | ⟨2, _⟩ => show win0_1.index t (2 : Fin 3) * 1024 + 1 * q'.val = win0_2.index t (2 : Fin 3) * 1024 + q'.val; omega
  · unfold KArr
    refine congrArg₂ (kval (V m c main_v198) (V m c main_v204)) (Fin.ext ?_) (Fin.ext ?_)
    · show win0_2.index t (0 : Fin 3) = win0_2.index t (0 : Fin 3) * 1 + 1 * (j 0).val; omega
    · show win0_2.index t (2 : Fin 3) * 1024 + (j 2).val = win0_2.index t (2 : Fin 3) * 1024 + 1 * (j 2).val; omega

/-- An index of the output array is in grid point t's block iff each coordinate is in the block's range. -/
theorem mem_blk (t : Fin cfg0.N) (i : S16x1x2048.Idx) :
    i ∈ ((cfg0.win 2).blk t).view.set ↔ ∀ a : Fin 3, win0_2.index t a * S1x1x1024.size a ≤ (i a).val ∧ (i a).val < win0_2.index t a * S1x1x1024.size a + S1x1x1024.size a := by
  show i ∈ ((View.whole main_v205).slice (win0_2.rect t)).set ↔ _
  rw [View.set_slice_whole, Rect.mem_set_unit]
  exact Iff.rfl

/-- The blocks fill the output array. -/
theorem cover (i : S16x1x2048.Idx) : ∃ t : Fin cfg0.N, (cfg0.win 2).flush t = true ∧ i ∈ ((cfg0.win 2).blk t).view.set := by
  have hi0 : (i 0).val < 16 := (i 0).isLt
  have hi1 : (i 1).val < 1 := (i 1).isLt
  have hi2 : (i 2).val < 2048 := (i 2).isLt
  obtain ⟨t, ht⟩ := idx_onto ⟨(i 0).val, hi0⟩ ⟨(i 2).val / 1024, by omega⟩
  have q0 : win0_2.index t (0 : Fin 3) = (i 0).val := congrFun ht 0
  have q1 : win0_2.index t (1 : Fin 3) = 0 := congrFun ht 1
  have q2 : win0_2.index t (2 : Fin 3) = (i 2).val / 1024 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 1024 ≤ (i 2).val ∧ (i 2).val < win0_2.index t (2 : Fin 3) * 1024 + 1024; omega

/-- The output array after the run. -/
theorem final (c : Dev nD) : (dats m 0 c).arrAt 2 cfg0.N = KArr (V m c main_v198) (V m c main_v204) :=
  (dats m 0 c).arrAt_eq_of_cover 2 (KArr (V m c main_v198) (V m c main_v204)) (fun t _ => flushed_eq m c t) cover

end Cert.Chamfer.KVal

end
-- ==== Proof.KHost.lean ====
/-
  The two augmented clouds the kernel's host code hands to the region, as functions of the rotated clouds, read at an
  entry.  From the rotated target cloud G ([16, 3, 2048]) it stacks four rows per batch: the squared norm
  (G₀² + G₁²) + G₂² of every point and −2·G₀, −2·G₁, −2·G₂; from the rotated predicted cloud P it stacks a row of ones
  and P₀, P₁, P₂.  Each row is a slice of the cloud along its middle axis with that axis dropped, and the rows are
  joined along a new middle axis.
-/
import proofs.«110801_j63591285785229_2_alg».proof.Proof.Gen.KernelIdeal
import Idealize.ShloMosaic.Lib.Pipeline.Value
import Idealize.ShloMosaic.Lib.ValueIdx

noncomputable section

namespace Cert.Chamfer.KHost

open Cert.KernelIdeal Cert.KernelIdeal.Facts₀ Cert.KernelIdeal.Facts
open Idealize.ShloMosaic Idealize.ShloMosaic.ValueIdx

variable {F : FTy → Type} [FloatOps F]

/-- Coordinate 0 of every point of a cloud: the slice at 0 of the middle axis, that axis dropped. -/
def coord0 (X : (⟨S16x3x2048, .f32⟩ : BufTy).Contents (Elt F)) : (⟨S16x2048, .f32⟩ : BufTy).Contents (Elt F) :=
  shapeCast S16x2048 (extractStridedSlice S16x1x2048 ![0, 0, 0] X slices_S16x3x2048_S16x1x2048_0_0_0) shapeCasts_S16x1x2048_S16x2048
/-- Coordinate 1. -/
def coord1 (X : (⟨S16x3x2048, .f32⟩ : BufTy).Contents (Elt F)) : (⟨S16x2048, .f32⟩ : BufTy).Contents (Elt F) :=
  shapeCast S16x2048 (extractStridedSlice S16x1x2048 ![0, 1, 0] X slices_S16x3x2048_S16x1x2048_0_1_0) shapeCasts_S16x1x2048_S16x2048
/-- Coordinate 2. -/
def coord2 (X : (⟨S16x3x2048, .f32⟩ : BufTy).Contents (Elt F)) : (⟨S16x2048, .f32⟩ : BufTy).Contents (Elt F) :=
  shapeCast S16x2048 (extractStridedSlice S16x1x2048 ![0, 2, 0] X slices_S16x3x2048_S16x1x2048_0_2_0) shapeCasts_S16x1x2048_S16x2048

/-- A [16, 2048] array given a unit middle axis. -/
def up (r : (⟨S16x2048, .f32⟩ : BufTy).Contents (Elt F)) : (⟨S16x1x2048, .f32⟩ : BufTy).Contents (Elt F) :=
  broadcastInDim S16x1x2048 ![0, 2] bcast_S16x2048_S16x1x2048_0_2 r

/-- A float word spread over [16, 2048]. -/
def splat (w : BitVec 32) : (⟨S16x2048, .f32⟩ : BufTy).Contents (Elt F) :=
  broadcastInDim S16x2048 ![] bcast_S_S16x2048 (constant S_ .f32 w)

/-- The augmented target cloud: squared norms, then the coordinates times the word of −2. -/
def gtAug (G : (⟨S16x3x2048, .f32⟩ : BufTy).Contents (Elt F)) : (⟨S16x4x2048, .f32⟩ : BufTy).Contents (Elt F) :=
  concatenate S16x4x2048 1
    [⟨S16x1x2048, up (addf (addf (mulf (coord0 G) (coord0 G)) (mulf (coord1 G) (coord1 G))) (mulf (coord2 G) (coord2 G)))⟩,
     ⟨S16x1x2048, up (mulf (splat 0xC0000000#32) (coord0 G))⟩,
     ⟨S16x1x2048, up (mulf (splat 0xC0000000#32) (coord1 G))⟩,
     ⟨S16x1x2048, up (mulf (splat 0xC0000000#32) (coord2 G))⟩]
    concatenates_S16x1x2048_S16x1x2048_S16x1x2048_S16x1x2048_S16x4x2048_d1

/-- The augmented predicted cloud: ones, then the coordinates. -/
def predAug (P : (⟨S16x3x2048, .f32⟩ : BufTy).Contents (Elt F)) : (⟨S16x4x2048, .f32⟩ : BufTy).Contents (Elt F) :=
  concatenate S16x4x2048 1
    [⟨S16x1x2048, up (splat 0x3F800000#32)⟩,
     ⟨S16x1x2048, up (coord0 P)⟩,
     ⟨S16x1x2048, up (coord1 P)⟩,
     ⟨S16x1x2048, up (coord2 P)⟩]
    concatenates_S16x1x2048_S16x1x2048_S16x1x2048_S16x1x2048_S16x4x2048_d1

/-! ## Read at an entry -/

/-- A slice at `o` of the middle axis with that axis dropped reads the cloud at (b, c, n), c = o. -/
theorem coord_apply {α : Type} (X : S16x3x2048.Idx → α) (o : ℕ) (c : Fin 3) (hc : c.val = o)
    (hs : S16x3x2048.Slices ![0, o, 0] S16x1x2048) (b : Fin 16) (n : Fin 2048) :
    shapeCast S16x2048 (extractStridedSlice S16x1x2048 ![0, o, 0] X hs) shapeCasts_S16x1x2048_S16x2048 (ix2 b n)
      = X (ix3 b c n) := by
  refine (shapeCast_apply _ shapeCasts_S16x1x2048_S16x2048 (ix2 b n) (ix3 b (0 : Fin 1) n) ?_).trans ?_
  · rw [Shape.rowMajor_val_three, Shape.rowMajor_val_two]
    show (b.val * 1 + 0) * 2048 + n.val = b.val * 2048 + n.val
    omega
  · refine extractStridedSlice_apply _ X hs (ix3 b (0 : Fin 1) n) (ix3 b c n) fun a => ?_
    match a with
    | ⟨0, _⟩ => exact (Nat.zero_add _).symm
    | ⟨1, _⟩ => show c.val = o + 0; omega
    | ⟨2, _⟩ => exact (Nat.zero_add _).symm

theorem coord0_apply (X : (⟨S16x3x2048, .f32⟩ : BufTy).Contents (Elt F)) (b : Fin 16) (n : Fin 2048) :
    coord0 X (ix2 b n) = X (ix3 b (0 : Fin 3) n) := coord_apply X 0 0 rfl _ b n
theorem coord1_apply (X : (⟨S16x3x2048, .f32⟩ : BufTy).Contents (Elt F)) (b : Fin 16) (n : Fin 2048) :
    coord1 X (ix2 b n) = X (ix3 b (1 : Fin 3) n) := coord_apply X 1 1 rfl _ b n
theorem coord2_apply (X : (⟨S16x3x2048, .f32⟩ : BufTy).Contents (Elt F)) (b : Fin 16) (n : Fin 2048) :
    coord2 X (ix2 b n) = X (ix3 b (2 : Fin 3) n) := coord_apply X 2 2 rfl _ b n

/-- The unit middle axis put back reads the [16, 2048] array at (b, n). -/
theorem up_apply (r : (⟨S16x2048, .f32⟩ : BufTy).Contents (Elt F)) (b : Fin 16) (u : Fin 1) (n : Fin 2048) :
    up r (ix3 b u n) = r (ix2 b n) :=
  broadcastInDim_apply _ bcast_S16x2048_S16x1x2048_0_2 r (ix3 b u n) (ix2 b n) (fun a => match a with
    | ⟨0, _⟩ => by show b.val = if (16 : Nat) = 1 then 0 else b.val; rw [if_neg (by decide)]
    | ⟨1, _⟩ => by show n.val = if (2048 : Nat) = 1 then 0 else n.val; rw [if_neg (by decide)])

/-- A spread word reads as the word everywhere. -/
theorem splat_apply (w : BitVec 32) (i : S16x2048.Idx) : splat (F := F) w i = FloatOps.ofBits .f32 w :=
  broadcastInDim_apply _ bcast_S_S16x2048 (constant S_ .f32 w) i ix0 (fun a => a.elim0)

/-- Four [16, 1, 2048] rows joined along the middle axis read, at (b, k, n), row k at (b, 0, n). -/
theorem cat4_apply {α : Type} (x0 x1 x2 x3 : S16x1x2048.Idx → α)
    (h : Shape.Concatenates (List.map (fun p => p.1) ([⟨S16x1x2048, x0⟩, ⟨S16x1x2048, x1⟩, ⟨S16x1x2048, x2⟩, ⟨S16x1x2048, x3⟩] :
      List ((s : Shape) × (s.Idx → α)))) S16x4x2048 1) (b : Fin 16) (n : Fin 2048) :
    (concatenate S16x4x2048 1 [⟨S16x1x2048, x0⟩, ⟨S16x1x2048, x1⟩, ⟨S16x1x2048, x2⟩, ⟨S16x1x2048, x3⟩] h (ix3 b (0 : Fin 4) n) = x0 (ix3 b (0 : Fin 1) n))
    ∧ (concatenate S16x4x2048 1 [⟨S16x1x2048, x0⟩, ⟨S16x1x2048, x1⟩, ⟨S16x1x2048, x2⟩, ⟨S16x1x2048, x3⟩] h (ix3 b (1 : Fin 4) n) = x1 (ix3 b (0 : Fin 1) n))
    ∧ (concatenate S16x4x2048 1 [⟨S16x1x2048, x0⟩, ⟨S16x1x2048, x1⟩, ⟨S16x1x2048, x2⟩, ⟨S16x1x2048, x3⟩] h (ix3 b (2 : Fin 4) n) = x2 (ix3 b (0 : Fin 1) n))
    ∧ (concatenate S16x4x2048 1 [⟨S16x1x2048, x0⟩, ⟨S16x1x2048, x1⟩, ⟨S16x1x2048, x2⟩, ⟨S16x1x2048, x3⟩] h (ix3 b (3 : Fin 4) n) = x3 (ix3 b (0 : Fin 1) n)) := by
  have hi : ∀ (k : Fin 4) (a : Fin S16x1x2048.rank), a.cast (rfl : S16x1x2048.rank = S16x4x2048.rank) ≠ (1 : Fin S16x4x2048.rank) →
      ((ix3 b (0 : Fin 1) n : S16x1x2048.Idx) a).val = ((ix3 b k n : S16x4x2048.Idx) (a.cast rfl)).val := fun k a ha => by
    match a, ha with
    | ⟨0, _⟩, _ => rfl
    | ⟨1, _⟩, ha => exact absurd rfl ha
    | ⟨2, _⟩, _ => rfl
  refine ⟨?_, ?_, ?_, ?_⟩
  · exact concatenate_apply_piece 1 ([⟨S16x1x2048, x0⟩, ⟨S16x1x2048, x1⟩, ⟨S16x1x2048, x2⟩, ⟨S16x1x2048, x3⟩] : List ((s : Shape) × (s.Idx → α))) h _ 0 (by simp) S16x1x2048 x0 rfl rfl 0 rfl (ix3 b (0 : Fin 1) n) (hi 0) rfl
  · exact concatenate_apply_piece 1 ([⟨S16x1x2048, x0⟩, ⟨S16x1x2048, x1⟩, ⟨S16x1x2048, x2⟩, ⟨S16x1x2048, x3⟩] : List ((s : Shape) × (s.Idx → α))) h _ 1 (by simp) S16x1x2048 x1 rfl rfl 1 rfl (ix3 b (0 : Fin 1) n) (hi 1) rfl
  · exact concatenate_apply_piece 1 ([⟨S16x1x2048, x0⟩, ⟨S16x1x2048, x1⟩, ⟨S16x1x2048, x2⟩, ⟨S16x1x2048, x3⟩] : List ((s : Shape) × (s.Idx → α))) h _ 2 (by simp) S16x1x2048 x2 rfl rfl 2 rfl (ix3 b (0 : Fin 1) n) (hi 2) rfl
  · exact concatenate_apply_piece 1 ([⟨S16x1x2048, x0⟩, ⟨S16x1x2048, x1⟩, ⟨S16x1x2048, x2⟩, ⟨S16x1x2048, x3⟩] : List ((s : Shape) × (s.Idx → α))) h _ 3 (by simp) S16x1x2048 x3 rfl rfl 3 rfl (ix3 b (0 : Fin 1) n) (hi 3) rfl

/-! ## The augmented clouds at an entry, over the extended reals -/

section AtIdeal

variable (G P : (⟨S16x3x2048, .f32⟩ : BufTy).Contents (Elt Ideal)) (b : Fin 16) (n : Fin 2048)

theorem gtAug_0 : gtAug (F := Ideal) G (ix3 b (0 : Fin 4) n)
    = (G (ix3 b (0 : Fin 3) n) * G (ix3 b (0 : Fin 3) n) + G (ix3 b (1 : Fin 3) n) * G (ix3 b (1 : Fin 3) n))
        + G (ix3 b (2 : Fin 3) n) * G (ix3 b (2 : Fin 3) n) := by
  refine ((cat4_apply _ _ _ _ concatenates_S16x1x2048_S16x1x2048_S16x1x2048_S16x1x2048_S16x4x2048_d1 b n).1).trans ((up_apply _ b 0 n).trans ?_)
  show (coord0 G (ix2 b n) * coord0 G (ix2 b n) + coord1 G (ix2 b n) * coord1 G (ix2 b n)) + coord2 G (ix2 b n) * coord2 G (ix2 b n) = _
  rw [coord0_apply, coord1_apply, coord2_apply]

theorem gtAug_1 : gtAug (F := Ideal) G (ix3 b (1 : Fin 4) n) = Ideal.ofBits .f32 0xC0000000#32 * G (ix3 b (0 : Fin 3) n) := by
  refine ((cat4_apply _ _ _ _ concatenates_S16x1x2048_S16x1x2048_S16x1x2048_S16x1x2048_S16x4x2048_d1 b n).2.1).trans ((up_apply _ b 0 n).trans ?_)
  show splat (F := Ideal) 0xC0000000#32 (ix2 b n) * coord0 G (ix2 b n) = _
  rw [coord0_apply, splat_apply]; rfl

theorem gtAug_2 : gtAug (F := Ideal) G (ix3 b (2 : Fin 4) n) = Ideal.ofBits .f32 0xC0000000#32 * G (ix3 b (1 : Fin 3) n) := by
  refine ((cat4_apply _ _ _ _ concatenates_S16x1x2048_S16x1x2048_S16x1x2048_S16x1x2048_S16x4x2048_d1 b n).2.2.1).trans ((up_apply _ b 0 n).trans ?_)
  show splat (F := Ideal) 0xC0000000#32 (ix2 b n) * coord1 G (ix2 b n) = _
  rw [coord1_apply, splat_apply]; rfl

theorem gtAug_3 : gtAug (F := Ideal) G (ix3 b (3 : Fin 4) n) = Ideal.ofBits .f32 0xC0000000#32 * G (ix3 b (2 : Fin 3) n) := by
  refine ((cat4_apply _ _ _ _ concatenates_S16x1x2048_S16x1x2048_S16x1x2048_S16x1x2048_S16x4x2048_d1 b n).2.2.2).trans ((up_apply _ b 0 n).trans ?_)
  show splat (F := Ideal) 0xC0000000#32 (ix2 b n) * coord2 G (ix2 b n) = _
  rw [coord2_apply, splat_apply]; rfl

theorem predAug_0 : predAug (F := Ideal) P (ix3 b (0 : Fin 4) n) = Ideal.ofBits .f32 0x3F800000#32 := by
  refine ((cat4_apply _ _ _ _ concatenates_S16x1x2048_S16x1x2048_S16x1x2048_S16x1x2048_S16x4x2048_d1 b n).1).trans ((up_apply _ b 0 n).trans ?_)
  rw [splat_apply]; rfl

theorem predAug_1 : predAug (F := Ideal) P (ix3 b (1 : Fin 4) n) = P (ix3 b (0 : Fin 3) n) :=
  ((cat4_apply _ _ _ _ concatenates_S16x1x2048_S16x1x2048_S16x1x2048_S16x1x2048_S16x4x2048_d1 b n).2.1).trans ((up_apply _ b 0 n).trans (coord0_apply P b n))

theorem predAug_2 : predAug (F := Ideal) P (ix3 b (2 : Fin 4) n) = P (ix3 b (1 : Fin 3) n) :=
  ((cat4_apply _ _ _ _ concatenates_S16x1x2048_S16x1x2048_S16x1x2048_S16x1x2048_S16x4x2048_d1 b n).2.2.1).trans ((up_apply _ b 0 n).trans (coord1_apply P b n))

theorem predAug_3 : predAug (F := Ideal) P (ix3 b (3 : Fin 4) n) = P (ix3 b (2 : Fin 3) n) :=
  ((cat4_apply _ _ _ _ concatenates_S16x1x2048_S16x1x2048_S16x1x2048_S16x1x2048_S16x4x2048_d1 b n).2.2.2).trans ((up_apply _ b 0 n).trans (coord2_apply P b n))

end AtIdeal

end Cert.Chamfer.KHost

end
-- ==== Proof.LibNaryThree.lean ====
/-
  A host operation with a literal family of three or four operand references (a concatenate), read at its result
  reference.  The general statement leaves the operands' contents under a binder, `fun k => F (xs k)`, and the
  four-operand form of the library packs them into a dependent family, where a simplifier does not reach them.  Here the
  result is stated as the operation's function applied to the operands' contents passed ONE BY ONE (`apply3`,
  `apply4`), so that each operand's contents can be rewritten further.
-/
import Idealize.ShloMosaic.Lib.StableHlo.Run

noncomputable section

namespace Cert.NaryThree

open Idealize.ShloMosaic Idealize.ShloMosaic.StableHlo Idealize.SL.Sem

variable {nD : Nat} {τ : Topo} {sig : RefSig} {Val : EltTy → Type}
variable {x a b c y : Ref sig .tc}

/-- A function of a family of three operands' contents, applied to the three contents. -/
def apply3 (f : ((k : Fin 3) → ((![x, a, b] : Fin 3 → Ref sig .tc) k).ty.Contents Val) → y.ty.Contents Val)
    (p : x.ty.Contents Val) (q : a.ty.Contents Val) (r : b.ty.Contents Val) : y.ty.Contents Val :=
  f (Fin.cons p (Fin.cons q (Fin.cons r (fun i => i.elim0))))

/-- A function of a family of four operands' contents, applied to the four contents. -/
def apply4 (f : ((k : Fin 4) → ((![x, a, b, c] : Fin 4 → Ref sig .tc) k).ty.Contents Val) → y.ty.Contents Val)
    (p : x.ty.Contents Val) (q : a.ty.Contents Val) (r : b.ty.Contents Val) (s : c.ty.Contents Val) : y.ty.Contents Val :=
  f (Fin.cons p (Fin.cons q (Fin.cons r (Fin.cons s (fun i => i.elim0)))))

/-- The result of a three-operand operation at its result reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = apply3 f (F (Proc.devRef .tc x)) (F (Proc.devRef .tc a)) (F (Proc.devRef .tc b)) := by
  rw [nary_result]; unfold apply3; congr 1; funext k; fin_cases k <;> rfl

/-- The same, with the result reference un-indexed for `simp`. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = apply3 f (F (Proc.devRef .tc x)) (F (Proc.devRef .tc a)) (F (Proc.devRef .tc b)) :=
  nary3_result f hxs hy F

/-- The result of a four-operand operation at its result reference. -/
theorem nary4_result
    (f : ((k : Fin 4) → ((![x, a, b, c] : Fin 4 → Ref sig .tc) k).ty.Contents Val) → y.ty.Contents Val) (hxs hy)
    (F : Valuation τ sig Val) :
    (nary (τ := τ) ![x, a, b, c] y f hxs hy).result F (Proc.devRef .tc y)
      = apply4 f (F (Proc.devRef .tc x)) (F (Proc.devRef .tc a)) (F (Proc.devRef .tc b)) (F (Proc.devRef .tc c)) := by
  rw [nary_result]; unfold apply4; congr 1; funext k; fin_cases k <;> rfl

/-- The same, with the result reference un-indexed for `simp`. -/
theorem nary4_result'
    (f : ((k : Fin 4) → ((![x, a, b, c] : Fin 4 → Ref sig .tc) k).ty.Contents Val) → y.ty.Contents Val) (hxs hy)
    (F : Valuation τ sig Val) :
    (nary (τ := τ) ![x, a, b, c] y f hxs hy).result F (no_index (Proc.devRef .tc y))
      = apply4 f (F (Proc.devRef .tc x)) (F (Proc.devRef .tc a)) (F (Proc.devRef .tc b)) (F (Proc.devRef .tc c)) :=
  nary4_result f hxs hy F

end Cert.NaryThree

end
-- ==== Proof.LibTRefRoundTrip.lean ====
/-
  A reusable lemma: a value carried to a buffer's own type and back.

  The operations of an outlined function (a reference's relu, log_softmax, …) name their buffers through typed
  references; a value of the stated type is carried to the buffer's own type when written and carried back when read.
  The two transports are along one equation of buffer types and its reverse, so together they are the identity —
  whatever the reference, and without looking the buffer's type up: substitute the equation.
-/
import Idealize.ShloMosaic.Lib.StableHlo

noncomputable section

namespace Cert.TRefRoundTrip

open Idealize.ShloMosaic Idealize.ShloMosaic.StableHlo

/-- Contents carried to a buffer's own type and back are the contents. -/
theorem ofBuf_toBuf {sg : RefSig} {T : BufTy} {Val : EltTy → Type} (x : TRef sg T) (v : T.Contents Val) :
    x.ofBuf (x.toBuf v) = v := by
  obtain ⟨r, h, h1, h2⟩ := x
  subst h
  rfl

end Cert.TRefRoundTrip

end
-- ==== Proof.KPrefix198.lean ====
/-
  The augmented target cloud the kernel's host code hands to the region, as a function of the program's arguments.
  The host lines before the region are, up to the rotated clouds, the reference's own, so the value is stated over the
  reference's stages.
-/
import proofs.«110801_j63591285785229_2_alg».proof.Proof.FrameKI
import proofs.«110801_j63591285785229_2_alg».proof.Proof.KHost
import proofs.«110801_j63591285785229_2_alg».proof.Proof.LibNaryThree
import proofs.«110801_j63591285785229_2_alg».proof.Proof.LibTRefRoundTrip
import proofs.«110801_j63591285785229_2_alg».proof.Proof.RefRead
import Idealize.ShloMosaic.Lib.StableHlo.Run

set_option maxRecDepth 16384

noncomputable section

namespace Cert.Chamfer.KPrefix

open Cert.KernelIdeal Cert.KernelIdeal.Gen Cert.KernelIdeal.Hand
open Idealize.ShloMosaic Idealize.ShloMosaic.TcCoe Idealize.SL.Sem
open Cert.Chamfer.KHost

variable (m : (ℓ : Loc nD τ sig) → Buf (Elt Ideal) ℓ)

set_option maxHeartbeats 400000000 in
/-- The augmented target cloud the region reads. -/
theorem V198 (c : Dev nD) :
    V m c main_v198 = gtAug (F := Ideal) (Cert.ReferenceIdeal.Read.val_main_v170 (F := Ideal)
      (m ((c : Thread nD τ).loc main_arg1)) (m ((c : Thread nD τ).loc main_arg2))) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp (disch := decide) only [StableHlo.after_cons, StableHlo.after_nil, StableHlo.nullary_result', StableHlo.unary_result', StableHlo.binary_result', StableHlo.ternary_result', StableHlo.quaternary_result', StableHlo.reshape_result', Cert.NaryThree.nary4_result', Cert.NaryThree.nary3_result', StableHlo.nullary_result_ne', StableHlo.unary_result_ne', StableHlo.binary_result_ne', StableHlo.ternary_result_ne', StableHlo.quaternary_result_ne', StableHlo.reshape_result_ne', StableHlo.nary_result_ne', Cert.TRefRoundTrip.ofBuf_toBuf]
  rfl

end Cert.Chamfer.KPrefix

end
-- ==== Proof.KPrefix204.lean ====
/-
  The augmented predicted cloud the kernel's host code hands to the region, as a function of the program's arguments.
  The host lines before the region are, up to the rotated clouds, the reference's own, so the value is stated over the
  reference's stages.
-/
import proofs.«110801_j63591285785229_2_alg».proof.Proof.FrameKI
import proofs.«110801_j63591285785229_2_alg».proof.Proof.KPrefix198
import proofs.«110801_j63591285785229_2_alg».proof.Proof.KHost
import proofs.«110801_j63591285785229_2_alg».proof.Proof.LibNaryThree
import proofs.«110801_j63591285785229_2_alg».proof.Proof.LibTRefRoundTrip
import proofs.«110801_j63591285785229_2_alg».proof.Proof.RefRead
import Idealize.ShloMosaic.Lib.StableHlo.Run

set_option maxRecDepth 16384

noncomputable section

namespace Cert.Chamfer.KPrefix

open Cert.KernelIdeal Cert.KernelIdeal.Gen Cert.KernelIdeal.Hand
open Idealize.ShloMosaic Idealize.ShloMosaic.TcCoe Idealize.SL.Sem
open Cert.Chamfer.KHost

variable (m : (ℓ : Loc nD τ sig) → Buf (Elt Ideal) ℓ)

set_option maxHeartbeats 400000000 in
/-- The augmented predicted cloud the region reads. -/
theorem V204 (c : Dev nD) :
    V m c main_v204 = predAug (F := Ideal) (Cert.ReferenceIdeal.Read.val_main_v169 (F := Ideal)
      (m ((c : Thread nD τ).loc main_arg0)) (m ((c : Thread nD τ).loc main_arg2))) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp (disch := decide) only [StableHlo.after_cons, StableHlo.after_nil, StableHlo.nullary_result', StableHlo.unary_result', StableHlo.binary_result', StableHlo.ternary_result', StableHlo.quaternary_result', StableHlo.reshape_result', Cert.NaryThree.nary4_result', Cert.NaryThree.nary3_result', StableHlo.nullary_result_ne', StableHlo.unary_result_ne', StableHlo.binary_result_ne', StableHlo.ternary_result_ne', StableHlo.quaternary_result_ne', StableHlo.reshape_result_ne', StableHlo.nary_result_ne', Cert.TRefRoundTrip.ofBuf_toBuf]
  rfl

end Cert.Chamfer.KPrefix

end
-- ==== Proof.KPrefix10.lean ====
/-
  The cosine loss the kernel's host code computes before the region, as a function of the program's arguments.
  The host lines before the region are, up to the rotated clouds, the reference's own, so the value is stated over the
  reference's stages.
-/
import proofs.«110801_j63591285785229_2_alg».proof.Proof.FrameKI
import proofs.«110801_j63591285785229_2_alg».proof.Proof.KPrefix204
import proofs.«110801_j63591285785229_2_alg».proof.Proof.KHost
import proofs.«110801_j63591285785229_2_alg».proof.Proof.LibNaryThree
import proofs.«110801_j63591285785229_2_alg».proof.Proof.LibTRefRoundTrip
import proofs.«110801_j63591285785229_2_alg».proof.Proof.RefRead
import Idealize.ShloMosaic.Lib.StableHlo.Run

set_option maxRecDepth 16384

noncomputable section

namespace Cert.Chamfer.KPrefix

open Cert.KernelIdeal Cert.KernelIdeal.Gen Cert.KernelIdeal.Hand
open Idealize.ShloMosaic Idealize.ShloMosaic.TcCoe Idealize.SL.Sem
open Cert.Chamfer.KHost

variable (m : (ℓ : Loc nD τ sig) → Buf (Elt Ideal) ℓ)

set_option maxHeartbeats 400000000 in
/-- The cosine loss, computed before the region. -/
theorem V10 (c : Dev nD) :
    V m c main_v10 = Cert.ReferenceIdeal.Read.val_main_v10 (F := Ideal)
      (m ((c : Thread nD τ).loc main_arg0)) (m ((c : Thread nD τ).loc main_arg1)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp (disch := decide) only [StableHlo.after_cons, StableHlo.after_nil, StableHlo.nullary_result', StableHlo.unary_result', StableHlo.binary_result', StableHlo.ternary_result', StableHlo.quaternary_result', StableHlo.reshape_result', Cert.NaryThree.nary4_result', Cert.NaryThree.nary3_result', StableHlo.nullary_result_ne', StableHlo.unary_result_ne', StableHlo.binary_result_ne', StableHlo.ternary_result_ne', StableHlo.quaternary_result_ne', StableHlo.reshape_result_ne', StableHlo.nary_result_ne', Cert.TRefRoundTrip.ofBuf_toBuf]
  rfl

end Cert.Chamfer.KPrefix

end
-- ==== Proof.KTail.lean ====
/-
  The host lines after the region.  They sum the region's output over all its entries, divide by 32768, and replace the
  quotient by zero where it is not equal to itself; nothing they write is an argument or the cosine loss, which
  therefore end as the lines before the region left them.
-/
import proofs.«110801_j63591285785229_2_alg».proof.Proof.FrameKI
import proofs.«110801_j63591285785229_2_alg».proof.Proof.LibNaryThree
import Idealize.ShloMosaic.Lib.StableHlo.Run
import Idealize.ShloMosaic.PureOps.Ideal

set_option maxRecDepth 16384

noncomputable section

namespace Cert.Chamfer.KTail

open Cert.KernelIdeal Cert.KernelIdeal.Gen Cert.KernelIdeal.Hand
open Idealize.ShloMosaic Idealize.ShloMosaic.TcCoe Idealize.SL.Sem

/-- A total divided by 32768, replaced by zero where the quotient differs from itself. -/
def lossOf {F : FTy → Type} [FloatOps F] (s : (⟨S_, .f32⟩ : BufTy).Contents (Elt F)) : (⟨S_, .f32⟩ : BufTy).Contents (Elt F) :=
  select (cmpf .une (Host.divf s (constant S_ .f32 0x47000000#32)) (Host.divf s (constant S_ .f32 0x47000000#32)))
    (constant S_ .f32 0x00000000#32) (Host.divf s (constant S_ .f32 0x47000000#32))

variable (m : (ℓ : Loc nD τ sig) → Buf (Elt Ideal) ℓ)

set_option maxHeartbeats 4000000 in
/-- The point-cloud loss after the run: `lossOf` of the total of the region's output array. -/
theorem tail209 (c : Dev nD) :
    Pipeline.afterTail₀ cfgs (dats m) 0 (V0 m) [hostOps1, hostOps1_1] c main_v209
      = lossOf (F := Ideal) (Host.reduceAdd (F := Ideal) ((dats m 0 c).arrAt 2 cfg0.N : (⟨S16x1x2048, .f32⟩ : BufTy).Contents (Elt Ideal)) (constant (F := Ideal) S_ .f32 0x00000000#32) Cert.KernelIdeal.Facts₀.reducesTo_S16x1x2048_S_d0_1_2 Cert.KernelIdeal.Facts₀.h_S_) := by
  unfold Pipeline.afterTail₀
  generalize hW : Pipeline.withArrays (cfgs 0).spec c (V0 m c) (fun w => (dats m 0 c).arrAt w (cfgs 0).N) = W
  have e : W (Proc.devRef .tc main_v205) = (dats m 0 c).arrAt 2 cfg0.N := by
    subst hW; exact Pipeline.withArrays_arr spec0 launch0.win.arr_inj c _ _ 2
  simp only [hostOps1, hostOps1_1, List.flatten_cons, List.flatten_nil, List.append_nil, List.cons_append, List.nil_append]
  simp (disch := decide) only [StableHlo.after_cons, StableHlo.after_nil, StableHlo.nullary_result', StableHlo.unary_result', StableHlo.binary_result', StableHlo.ternary_result', StableHlo.quaternary_result', StableHlo.reshape_result', StableHlo.nary4_result', Cert.NaryThree.nary3_result', StableHlo.nullary_result_ne', StableHlo.unary_result_ne', StableHlo.binary_result_ne', StableHlo.ternary_result_ne', StableHlo.quaternary_result_ne', StableHlo.reshape_result_ne', StableHlo.nary_result_ne']
  rw [e]
  rfl

set_option maxHeartbeats 4000000 in
/-- The cosine loss is not touched by the region or by the lines after it. -/
theorem tail10 (c : Dev nD) :
    Pipeline.afterTail₀ cfgs (dats m) 0 (V0 m) [hostOps1, hostOps1_1] c main_v10 = V m c main_v10 := by
  unfold Pipeline.afterTail₀
  generalize hW : Pipeline.withArrays (cfgs 0).spec c (V0 m c) (fun w => (dats m 0 c).arrAt w (cfgs 0).N) = W
  simp only [hostOps1, hostOps1_1, List.flatten_cons, List.flatten_nil, List.append_nil, List.cons_append, List.nil_append]
  simp (disch := decide) only [StableHlo.after_cons, StableHlo.after_nil, StableHlo.nullary_result', StableHlo.unary_result', StableHlo.binary_result', StableHlo.ternary_result', StableHlo.quaternary_result', StableHlo.reshape_result', StableHlo.nary4_result', Cert.NaryThree.nary3_result', StableHlo.nullary_result_ne', StableHlo.unary_result_ne', StableHlo.binary_result_ne', StableHlo.ternary_result_ne', StableHlo.quaternary_result_ne', StableHlo.reshape_result_ne', StableHlo.nary_result_ne']
  subst hW
  exact Pipeline.withArrays_of_ne _ c (V0 m c) _ main_v10 (by exact (by decide : ∀ w, Pipeline.arrRef spec0 w ≠ main_v10))

end Cert.Chamfer.KTail

end
-- ==== Proof.RefSide.lean ====
/-
  The reference program's nearest-neighbour distance read at an entry.  With G the rotated target cloud and P the
  rotated predicted cloud (both [16, 3, 2048]), the reference forms, for a batch b and a predicted point m,
      min over target points n of ( (0 + Σ_c G[b,c,n]²) + (0 + Σ_c P[b,c,m]²) ) − 2 · Σ_c G[b,c,n]·P[b,c,m],
  the minimum taken from +∞.
-/
import proofs.«110801_j63591285785229_2_alg».proof.Proof.RefRead
import Idealize.ShloMosaic.PureOps.Reduce

noncomputable section

namespace Cert.Chamfer.Ref

open Cert.ReferenceIdeal Cert.ReferenceIdeal.Gen Cert.ReferenceIdeal.Read
open Idealize.ShloMosaic Idealize.ShloMosaic.ValueIdx

/-- One entry of the reference's squared-distance array: the squared norms of the two points less twice their inner
    product, over the rotated clouds. -/
theorem l2_apply (x0 x1 : (⟨S16x4, .f32⟩ : BufTy).Contents (Elt Ideal)) (x2 : (⟨S16x3x2048, .f32⟩ : BufTy).Contents (Elt Ideal))
    (b : Fin 16) (n m : Fin 2048) :
    val_main_v183 (F := Ideal) x0 x1 x2 (ix3 b n m)
      = ((Ideal.ofBits .f32 0x00000000#32 + ∑ k : Fin 3, val_main_v170 (F := Ideal) x1 x2 (ix3 b k n) * val_main_v170 (F := Ideal) x1 x2 (ix3 b k n))
          + (Ideal.ofBits .f32 0x00000000#32 + ∑ k : Fin 3, val_main_v169 (F := Ideal) x0 x2 (ix3 b k m) * val_main_v169 (F := Ideal) x0 x2 (ix3 b k m)))
        - Ideal.ofBits .f32 0x40000000#32 * ∑ k : Fin 3, val_main_v170 (F := Ideal) x1 x2 (ix3 b k n) * val_main_v169 (F := Ideal) x0 x2 (ix3 b k m) := by
  have e1 : ∀ k : Fin 3, idx_main_v172 (idx_main_v176 (idx_main_v178 (ix3 b n m))) k = ix3 b k n := fun k =>
    funext fun a => Fin.ext (by match a with | ⟨0, _⟩ => rfl | ⟨1, _⟩ => rfl | ⟨2, _⟩ => rfl)
  have e2 : ∀ k : Fin 3, idx_main_v174 (idx_main_v177 (idx_main_v179 (ix3 b n m))) k = ix3 b k m := fun k =>
    funext fun a => Fin.ext (by match a with | ⟨0, _⟩ => rfl | ⟨1, _⟩ => rfl | ⟨2, _⟩ => rfl)
  have e3 : ∀ k : Fin 3, lidx_main_v175 (ix3 b n m) k = ix3 b k n := fun k =>
    funext fun a => Fin.ext (by match a with | ⟨0, _⟩ => rfl | ⟨1, _⟩ => rfl | ⟨2, _⟩ => rfl)
  have e4 : ∀ k : Fin 3, ridx_main_v175 (ix3 b n m) k = ix3 b k m := fun k =>
    funext fun a => Fin.ext (by match a with | ⟨0, _⟩ => rfl | ⟨1, _⟩ => rfl | ⟨2, _⟩ => rfl)
  rw [val_main_v183_apply, val_main_v180_apply, val_main_v182_apply, val_main_v178_apply, val_main_v176_apply,
    val_main_v172_apply, val_main_v179_apply, val_main_v177_apply, val_main_v174_apply, val_main_v181_apply,
    val_main_v175_apply]
  simp only [val_main_v171_apply, val_main_v173_apply, val_main_cst_30_apply, val_main_cst_31_apply, val_main_cst_32_apply,
    e1, e2, e3, e4, Ideal.ofBits_def, Ideal.addf_def, Ideal.subf_def, Ideal.mulf_def]

/-- The reference's minimum over the target points at (b, m): the fold of `min` from the word of +∞ over the entries
    (b, n, m). -/
theorem min_apply (x0 x1 : (⟨S16x4, .f32⟩ : BufTy).Contents (Elt Ideal)) (x2 : (⟨S16x3x2048, .f32⟩ : BufTy).Contents (Elt Ideal))
    (b : Fin 16) (m : Fin 2048) :
    val_main_v184 (F := Ideal) x0 x1 x2 (ix2 b m)
      = (Finset.univ : Finset (Fin 2048)).fold min (Ideal.ofBits .f32 0x7F800000#32)
          (fun n => val_main_v183 (F := Ideal) x0 x1 x2 (ix3 b n m)) := by
  unfold val_main_v184
  generalize val_main_v183 (F := Ideal) x0 x1 x2 = y
  have h : S16x2048x2048.Reduces [1] S16x2048 := by decide
  rw [Host.reduce_eq_fold_single (FloatOps.minimumf (F := Ideal) (φ := .f32)) y (val_main_cst_33 (F := Ideal))
    reducesTo_S16x2048x2048_S16x2048_d1 h h_S_ (ix2 b m)]
  have e : ∀ n : Fin 2048, h.lift (ix2 b m) n = ix3 b n m := fun n =>
    funext fun ax => Fin.ext (by match ax with | ⟨0, _⟩ => rfl | ⟨1, _⟩ => rfl | ⟨2, _⟩ => rfl)
  have ef : (y ∘ h.lift (ix2 b m)) = fun n : Fin 2048 => y (ix3 b n m) := funext fun n => congrArg y (e n)
  rw [ef]
  rfl

end Cert.Chamfer.Ref

end
-- ==== Proof.Consts.lean ====
/-
  The float words the two programs spell, as the extended reals they denote, and the fact that adding a real number
  commutes with a minimum taken from +∞ over a finite family.
-/
import Idealize.ShloMosaic.PureOps.Ideal

noncomputable section

namespace Cert.Chamfer

open Idealize.ShloMosaic

/-- The word of +0.0 is 0. -/
theorem ofBits_zero : Ideal.ofBits .f32 0x00000000#32 = 0 := by
  simp [Ideal.ofBits, Ideal.ieee]

/-- The word of 1.0 is 1. -/
theorem ofBits_one : Ideal.ofBits .f32 0x3F800000#32 = ((1 : ℝ) : EReal) := by
  simp [Ideal.ofBits, Ideal.ieee, -EReal.coe_mul]; norm_num

/-- The word of 2.0 is 2. -/
theorem ofBits_two : Ideal.ofBits .f32 0x40000000#32 = ((2 : ℝ) : EReal) := by
  simp [Ideal.ofBits, Ideal.ieee, -EReal.coe_mul]; norm_num

/-- The word of -2.0 is -2. -/
theorem ofBits_neg_two : Ideal.ofBits .f32 0xC0000000#32 = ((-2 : ℝ) : EReal) := by
  simp [Ideal.ofBits, Ideal.ieee, -EReal.coe_mul]; norm_num

/-- The word 0x7F800000 is +∞. -/
theorem ofBits_inf : Ideal.ofBits .f32 0x7F800000#32 = ⊤ := by
  simp [Ideal.ofBits, Ideal.ieee]

/-- Adding a real number to a minimum over a finite family, taken from +∞, is the minimum of the shifted family:
    translation by a real is monotone on the extended reals and fixes +∞. -/
theorem fold_min_add_real {ι : Type} (s : Finset ι) (f : ι → EReal) (y : ℝ) :
    s.fold min ⊤ f + (y : EReal) = s.fold min ⊤ (fun n => f n + (y : EReal)) := by
  classical
  induction s using Finset.induction_on with
  | empty => simp
  | insert a s ha ih =>
    rw [Finset.fold_insert ha, Finset.fold_insert ha, ← ih]
    exact (Monotone.map_min (f := fun x : EReal => x + (y : EReal)) (fun _ _ h => add_le_add_left h _))

/-- The two arrangements of a nearest-neighbour distance agree as soon as they agree entry by entry over the reals:
    a minimum of `a n` plus `y` is the minimum of `a n + y`. -/
theorem nn_eq {ι : Type} [Fintype ι] (L R : ι → EReal) (Y : EReal) (a : ι → ℝ) (y : ℝ)
    (hL : ∀ n, L n = ((a n : ℝ) : EReal)) (hY : Y = (y : EReal)) (hR : ∀ n, R n = ((a n + y : ℝ) : EReal)) :
    (Finset.univ : Finset ι).fold min ⊤ L + Y = (Finset.univ : Finset ι).fold min ⊤ R := by
  rw [hY, fold_min_add_real]
  refine congrArg (fun f => (Finset.univ : Finset ι).fold min ⊤ f) (funext fun n => ?_)
  rw [hL, hR, EReal.coe_add]

end Cert.Chamfer

end
-- ==== Proof.Bridge.lean ====
/-
  The law that joins the two programs, at one batch b and one predicted point m, for rotated clouds G and P with real
  entries.  The kernel minimises over the target points n the product of the augmented rows,
      (G₀²+G₁²+G₂²)·1 + (−2G₀)·P₀ + (−2G₁)·P₁ + (−2G₂)·P₂   =  |Gₙ|² − 2⟨Gₙ, Pₘ⟩,
  and adds |Pₘ|² after the minimum; the reference minimises (|Gₙ|² + |Pₘ|²) − 2⟨Gₙ, Pₘ⟩.  Over the reals the two
  entries differ by the constant |Pₘ|², and adding a real commutes with a minimum taken from +∞.
-/
import proofs.«110801_j63591285785229_2_alg».proof.Proof.Consts
import proofs.«110801_j63591285785229_2_alg».proof.Proof.KHost

noncomputable section

namespace Cert.Chamfer

open Cert.KernelIdeal
open Idealize.ShloMosaic Idealize.ShloMosaic.ValueIdx
open Cert.Chamfer.KHost

theorem entry_eq (G P : (⟨S16x3x2048, .f32⟩ : BufTy).Contents (Elt Ideal))
    (hG : ∀ i, ∃ r : ℝ, G i = (r : EReal)) (hP : ∀ i, ∃ r : ℝ, P i = (r : EReal)) (b : Fin 16) (m : Fin 2048) :
    (Finset.univ : Finset (Fin 2048)).fold min (Ideal.ofBits .f32 0x7F800000#32)
        (fun n => ∑ k : Fin 4, gtAug (F := Ideal) G (ix3 b k n) * predAug (F := Ideal) P (ix3 b k m))
      + ((predAug (F := Ideal) P (ix3 b (1 : Fin 4) m) * predAug (F := Ideal) P (ix3 b (1 : Fin 4) m)
          + predAug (F := Ideal) P (ix3 b (2 : Fin 4) m) * predAug (F := Ideal) P (ix3 b (2 : Fin 4) m))
        + predAug (F := Ideal) P (ix3 b (3 : Fin 4) m) * predAug (F := Ideal) P (ix3 b (3 : Fin 4) m))
    = (Finset.univ : Finset (Fin 2048)).fold min (Ideal.ofBits .f32 0x7F800000#32)
        (fun n => ((Ideal.ofBits .f32 0x00000000#32 + ∑ k : Fin 3, G (ix3 b k n) * G (ix3 b k n))
            + (Ideal.ofBits .f32 0x00000000#32 + ∑ k : Fin 3, P (ix3 b k m) * P (ix3 b k m)))
          - Ideal.ofBits .f32 0x40000000#32 * ∑ k : Fin 3, G (ix3 b k n) * P (ix3 b k m)) := by
  choose g hg using hG
  choose p hp using hP
  rw [ofBits_inf]
  refine nn_eq _ _ _
    (fun n => ((g (ix3 b 0 n) * g (ix3 b 0 n) + g (ix3 b 1 n) * g (ix3 b 1 n)) + g (ix3 b 2 n) * g (ix3 b 2 n))
      - 2 * ((g (ix3 b 0 n) * p (ix3 b 0 m) + g (ix3 b 1 n) * p (ix3 b 1 m)) + g (ix3 b 2 n) * p (ix3 b 2 m)))
    ((p (ix3 b 0 m) * p (ix3 b 0 m) + p (ix3 b 1 m) * p (ix3 b 1 m)) + p (ix3 b 2 m) * p (ix3 b 2 m)) ?_ ?_ ?_
  · intro n
    beta_reduce
    rw [Fin.sum_univ_four, gtAug_0, gtAug_1, gtAug_2, gtAug_3, predAug_0, predAug_1, predAug_2, predAug_3]
    simp only [hg, hp, ofBits_one, ofBits_neg_two, ← EReal.coe_mul, ← EReal.coe_add]
    refine congrArg Real.toEReal ?_
    ring
  · rw [predAug_1, predAug_2, predAug_3]
    simp only [hp, ← EReal.coe_mul, ← EReal.coe_add]
  · intro n
    beta_reduce
    simp only [Fin.sum_univ_three, hg, hp, ofBits_zero, ofBits_two, zero_add, ← EReal.coe_mul, ← EReal.coe_add, ← EReal.coe_sub]
    refine congrArg Real.toEReal ?_
    ring

end Cert.Chamfer

end
-- ==== Proof.TotalSum.lean ====
/-
  A host float sum over every axis does not see a unit axis.  Over the extended reals the sum of all entries of a
  [16, 1, 2048] array, from an initial value, equals the sum of all entries of a [16, 2048] array from the same
  initial value when the entries agree under (b, 0, m) ↔ (b, m): each is the initial value plus the sum over all
  indices, and (b, 0, m) ↦ (b, m) is a bijection of the index sets (the middle coordinate of a [16, 1, 2048] index
  is 0).
-/
import Idealize.ShloMosaic.PureOps.Ideal.Laws
import Idealize.ShloMosaic.Lib.ValueIdx

noncomputable section

namespace Cert.Chamfer

open Idealize.ShloMosaic Idealize.ShloMosaic.ValueIdx

/-- Every index of an [a, 1, c] array has middle coordinate 0. -/
theorem eq_ix3_mid {a c : ℕ} (i : (⟨3, ![a, 1, c]⟩ : Shape).Idx) :
    i = ix3 (n0 := a) (n1 := 1) (n2 := c) (i 0) (0 : Fin 1) (i 2) := by
  have h1 : i 1 = (0 : Fin 1) := Fin.ext (by have : (i 1).val < 1 := (i 1).isLt; show (i 1).val = 0; omega)
  exact (eq_ix3 i).trans (by rw [h1]; rfl)

/-- Dropping the unit axis: (b, 0, m) ↔ (b, m). -/
def dropMid (a c : ℕ) : (⟨3, ![a, 1, c]⟩ : Shape).Idx ≃ (⟨2, ![a, c]⟩ : Shape).Idx where
  toFun i := ix2 (n0 := a) (n1 := c) (i 0) (i 2)
  invFun j := ix3 (n0 := a) (n1 := 1) (n2 := c) (j 0) (0 : Fin 1) (j 1)
  left_inv i := (eq_ix3_mid i).symm
  right_inv j := (eq_ix2 j).symm

/-- The two total sums agree, for any extents of the outer axes. -/
theorem total_eq_of {a c : ℕ} (f : (⟨3, ![a, 1, c]⟩ : Shape).Idx → EReal) (g : (⟨2, ![a, c]⟩ : Shape).Idx → EReal)
    (h : ∀ (b : Fin a) (m : Fin c), f (ix3 b (0 : Fin 1) m) = g (ix2 b m))
    (z : (⟨0, ![]⟩ : Shape).Idx → EReal)
    (hK : (⟨3, ![a, 1, c]⟩ : Shape).ReducesTo [0, 1, 2] ⟨0, ![]⟩) (hR : (⟨2, ![a, c]⟩ : Shape).ReducesTo [0, 1] ⟨0, ![]⟩)
    (hu : 0 < (⟨0, ![]⟩ : Shape).numel) :
    Host.reduceAdd (F := Ideal) (φ := .f32) f z hK hu = Host.reduceAdd (F := Ideal) (φ := .f32) g z hR hu := by
  funext i
  simp only [Host.reduceAdd, Ideal.hostReduceAdd_def]
  rw [Ideal.hostReduceAdd_total hK (fun b => b.elim0), Ideal.hostReduceAdd_total hR (fun b => b.elim0)]
  refine congrArg (fun s => z (Shape.Idx.first hu) + s) ?_
  refine Fintype.sum_equiv (dropMid a c) _ _ fun x => ?_
  exact (congrArg f (eq_ix3_mid x)).trans (h (x 0) (x 2))

/-- At the extents of the program: a [16, 1, 2048] array against a [16, 2048] array. -/
theorem total_eq (f : (⟨3, ![16, 1, 2048]⟩ : Shape).Idx → EReal) (g : (⟨2, ![16, 2048]⟩ : Shape).Idx → EReal)
    (h : ∀ (b : Fin 16) (m : Fin 2048), f (ix3 b (0 : Fin 1) m) = g (ix2 b m))
    (z : (⟨0, ![]⟩ : Shape).Idx → EReal)
    (hK : (⟨3, ![16, 1, 2048]⟩ : Shape).ReducesTo [0, 1, 2] ⟨0, ![]⟩) (hR : (⟨2, ![16, 2048]⟩ : Shape).ReducesTo [0, 1] ⟨0, ![]⟩)
    (hu : 0 < (⟨0, ![]⟩ : Shape).numel) :
    Host.reduceAdd (F := Ideal) (φ := .f32) f z hK hu = Host.reduceAdd (F := Ideal) (φ := .f32) g z hR hu :=
  total_eq_of f g h z hK hR hu

end Cert.Chamfer

end
-- ==== Proof.LibRealEntries.lean ====
/-
  Reusable lemmas: arrays over the extended reals all of whose entries are real numbers.

  An extended real is either a real number or one of the two infinities.  Sums and products of real numbers are real,
  the cosine and the sine of a real number are real, a quotient of a real number by a non-zero real number is real,
  and the 32-bit float patterns whose exponent field is not all ones denote real numbers.  The operations that only
  re-index an array (a broadcast along named axes, a reshape, a transpose, a concatenation) read each result entry
  from an operand entry, so they carry "every entry is real" from the operands to the result; so do the entrywise
  product, negation, cosine, sine and quotient, and a matrix product (a finite sum of products).

  The last part is the one algebraic law the file is for: for matrices with real entries the product is associative,
  entry by entry, as an identity between extended reals — (A·B)·C = A·(B·C).  Over the extended reals this needs the
  entries to be real: with infinities a product does not distribute over a sum.
-/
import Idealize.ShloMosaic.PureOps.Ideal.Laws
import Idealize.ShloMosaic.Lib.ValueIdx

noncomputable section

namespace Cert.RealEntries

open Idealize.ShloMosaic Idealize.ShloMosaic.ValueIdx

/-! ## Real numbers among the extended reals -/

/-- The extended real is a real number. -/
def IsR (x : EReal) : Prop := ∃ r : ℝ, x = (r : EReal)

theorem IsR.coe (r : ℝ) : IsR (r : EReal) := ⟨r, rfl⟩

theorem IsR.zero : IsR 0 := ⟨0, rfl⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

theorem IsR.cos {x : EReal} (hx : IsR x) : IsR (Ideal.cos x) := by
  obtain ⟨a, rfl⟩ := hx; exact ⟨Real.cos a, rfl⟩

theorem IsR.sin {x : EReal} (hx : IsR x) : IsR (Ideal.sin x) := by
  obtain ⟨a, rfl⟩ := hx; exact ⟨Real.sin a, rfl⟩

/-- A real number divided by a non-zero real number. -/
theorem IsR.div {x y : EReal} (hx : IsR x) {b : ℝ} (hy : y = (b : EReal)) (hb : b ≠ 0) : IsR (Ideal.div x y) := by
  subst hy
  rw [Ideal.div_coe hb]
  exact hx.mul (IsR.coe _)

/-- A 32-bit float pattern whose exponent field is not all ones denotes a real number. -/
theorem isR_ofBits_f32 (w : BitVec 32) (h : (w.extractLsb' 23 8).toNat ≠ 255) : IsR (Ideal.ofBits .f32 w) := by
  show IsR (Ideal.ieee 8 23 w)
  unfold Ideal.ieee
  dsimp only
  rw [if_neg (by norm_num; exact h)]
  split_ifs <;> exact ⟨_, rfl⟩

/-- The pattern of 2.0 denotes the real number 2. -/
theorem ofBits_two : Ideal.ofBits .f32 0x40000000#32 = ((2 : ℝ) : EReal) := by
  simp [Ideal.ofBits, Ideal.ieee, -EReal.coe_mul]; norm_num

/-! ## Arrays of real numbers -/

variable {s t : Shape} {φ : FTy}

/-- Every entry of the array is a real number. -/
def AllReal (x : FVec Ideal s φ) : Prop := ∀ i, IsR (x i)

/-- A broadcast along named axes reads every entry from the operand. -/
theorem AllReal.of_broadcastInDim {x : FVec Ideal s φ} (hx : AllReal x) (dims : Fin s.rank → Fin t.rank)
    (h : s.BroadcastsInDim t dims) : AllReal (φ := φ) (broadcastInDim t dims h x) := by
  intro j; unfold Idealize.ShloMosaic.broadcastInDim; exact hx _

/-- A reshape reads every entry from the operand. -/
theorem AllReal.of_shapeCast {x : FVec Ideal s φ} (hx : AllReal x) (h : s.ShapeCasts t) :
    AllReal (φ := φ) (shapeCast t x h) := by
  intro j; unfold Idealize.ShloMosaic.shapeCast; exact hx _

/-- A transpose reads every entry from the operand. -/
theorem AllReal.of_transpose {x : FVec Ideal s φ} (hx : AllReal x) (perm : List (Fin s.rank)) (h : s.Transposes perm t) :
    AllReal (φ := φ) (transpose t perm x h) := by
  intro j; unfold Idealize.ShloMosaic.transpose; exact hx _

/-- A concatenation reads every entry from one of the pieces. -/
theorem AllReal.of_concatenate (a : Fin t.rank) (xs : List ((s : Shape) × (s.Idx → EReal)))
    (h : Shape.Concatenates (xs.map (·.1)) t a) (hxs : ∀ p ∈ xs, ∀ i, IsR (p.2 i)) :
    AllReal (φ := φ) (concatenate t a xs h) := by
  intro j; unfold Idealize.ShloMosaic.concatenate; dsimp only
  exact hxs _ (List.getElem_mem _) _

/-- A concatenation of two pieces. -/
theorem AllReal.of_concatenate₂ {s₁ s₂ : Shape} (a : Fin t.rank) {x : FVec Ideal s₁ φ} {y : FVec Ideal s₂ φ}
    (hx : AllReal x) (hy : AllReal y) (h : Shape.Concatenates [s₁, s₂] t a) :
    AllReal (φ := φ) (concatenate t a [⟨s₁, x⟩, ⟨s₂, y⟩] h) :=
  AllReal.of_concatenate a [⟨s₁, x⟩, ⟨s₂, y⟩] h fun p hp => by
    simp only [List.mem_cons, List.not_mem_nil, or_false] at hp
    rcases hp with rfl | rfl
    · exact hx
    · exact hy

/-- The entrywise product. -/
theorem AllReal.of_mulf {x y : FVec Ideal s φ} (hx : AllReal x) (hy : AllReal y) : AllReal (mulf x y) :=
  fun i => (hx i).mul (hy i)

/-- The entrywise negation on the host. -/
theorem AllReal.of_hostNegf {x : FVec Ideal s φ} (hx : AllReal x) : AllReal (Host.negf x) :=
  fun i => (hx i).neg

/-- The entrywise cosine on the host. -/
theorem AllReal.of_hostCos {x : FVec Ideal s φ} (hx : AllReal x) : AllReal (Host.cos x) :=
  fun i => (hx i).cos

/-- The entrywise sine on the host. -/
theorem AllReal.of_hostSin {x : FVec Ideal s φ} (hx : AllReal x) : AllReal (Host.sin x) :=
  fun i => (hx i).sin

/-- The entrywise quotient on the host by the splat of the float 2.0. -/
theorem AllReal.of_hostDivTwo {x : FVec Ideal s .f32} (hx : AllReal x) :
    AllReal (Host.divf x (constant (F := Ideal) s .f32 0x40000000#32)) :=
  fun i => (hx i).div ofBits_two (by norm_num)

/-- A table of 32-bit float patterns none of whose exponent fields is all ones. -/
theorem AllReal.ofTable (f : s.Idx → BitVec 32) (h : ∀ i, ((f i).extractLsb' 23 8).toNat ≠ 255) :
    AllReal (φ := .f32) (fun i => (FloatOps.ofBits (F := Ideal) .f32 (f i) : Ideal .f32)) :=
  fun i => isR_ofBits_f32 _ (h i)

/-! ## Matrices of real numbers -/

variable {M K N L : Nat}

/-- A matrix product of two matrices of real numbers, read at each entry as the sum over the inner index, has real
    entries. -/
theorem allReal_of_sum {x : FVec Ideal ⟨2, ![M, N]⟩ φ} (a : Fin M → Fin K → EReal) (b : Fin K → Fin N → EReal)
    (ha : ∀ p k, IsR (a p k)) (hb : ∀ k q, IsR (b k q))
    (hx : ∀ p q, x (ix2 p q) = ∑ k : Fin K, a p k * b k q) : AllReal x := by
  intro j
  obtain ⟨p, q, rfl⟩ : ∃ (p : Fin M) (q : Fin N), j = ix2 p q := ⟨j 0, j 1, eq_ix2 j⟩
  rw [hx]
  exact IsR.sum _ _ fun k _ => (ha _ k).mul (hb k _)

/-- The coercion from the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- ASSOCIATIVITY of the product of matrices of real numbers, entry by entry, over the extended reals:
    Σ_j (Σ_i A[p,i]·B[i,j])·C[j,q] = Σ_i A[p,i]·(Σ_j B[i,j]·C[j,q]). -/
theorem matmul_assoc (A : Fin M → Fin K → EReal) (B : Fin K → Fin L → EReal) (C : Fin L → Fin N → EReal)
    (hA : ∀ p i, IsR (A p i)) (hB : ∀ i j, IsR (B i j)) (hC : ∀ j q, IsR (C j q)) (p : Fin M) (q : Fin N) :
    ∑ j : Fin L, (∑ i : Fin K, A p i * B i j) * C j q = ∑ i : Fin K, A p i * ∑ j : Fin L, B i j * C j q := by
  choose a ha using hA
  choose b hb using hB
  choose c hc using hC
  simp only [ha, hb, hc, ← EReal.coe_mul, ← coe_sum]
  rw [EReal.coe_eq_coe_iff]
  simp only [Finset.sum_mul, Finset.mul_sum]
  rw [Finset.sum_comm]
  exact Finset.sum_congr rfl fun i _ => Finset.sum_congr rfl fun j _ => mul_assoc _ _ _

end Cert.RealEntries

end
-- ==== Proof.LibRealClosure.lean ====
/-
  Reusable lemmas: arrays over the extended reals whose entries are real, non-negative real, or positive real numbers,
  carried through the entrywise and re-indexing operations of a host program.

  Three predicates on an extended real: it is a real number; it is a real number r with 0 ≤ r; it is a real number r with
  0 < r.  Sums, differences and products of real numbers are real.  A square of a real number is a non-negative real, a
  finite sum of non-negative reals (from a non-negative initial value) is a non-negative real, the square root of a
  non-negative real is a non-negative real, the maximum of a positive real with a real is a positive real, and a real
  divided by a positive real is real.  A 32-bit float pattern with sign bit 0 and exponent field neither 0 nor all ones
  denotes a positive real.  The operations that only move entries (slice, broadcast, concatenation of three pieces,
  splat of a constant) carry each predicate from the operands to the result.
-/
import proofs.«110801_j63591285785229_2_alg».proof.Proof.LibRealEntries

noncomputable section

namespace Cert.RealEntries

open Idealize.ShloMosaic Idealize.ShloMosaic.ValueIdx

/-! ## Non-negative and positive real numbers among the extended reals -/

/-- The extended real is a non-negative real number. -/
def IsNN (x : EReal) : Prop := ∃ r : ℝ, 0 ≤ r ∧ x = (r : EReal)

/-- The extended real is a positive real number. -/
def IsPos (x : EReal) : Prop := ∃ r : ℝ, 0 < r ∧ x = (r : EReal)

theorem IsNN.isR {x : EReal} (h : IsNN x) : IsR x := by
  obtain ⟨r, _, rfl⟩ := h; exact ⟨r, rfl⟩

theorem IsPos.isR {x : EReal} (h : IsPos x) : IsR x := by
  obtain ⟨r, _, rfl⟩ := h; exact ⟨r, rfl⟩

theorem IsPos.isNN {x : EReal} (h : IsPos x) : IsNN x := by
  obtain ⟨r, hr, rfl⟩ := h; exact ⟨r, hr.le, rfl⟩

theorem IsNN.zero : IsNN 0 := ⟨0, le_refl _, rfl⟩

theorem IsR.sub {x y : EReal} (hx : IsR x) (hy : IsR y) : IsR (x - y) := by
  obtain ⟨a, rfl⟩ := hx; obtain ⟨b, rfl⟩ := hy; exact ⟨a - b, (EReal.coe_sub a b).symm⟩

/-- The square of a real number is a non-negative real number. -/
theorem IsR.mul_self {x : EReal} (hx : IsR x) : IsNN (x * x) := by
  obtain ⟨a, rfl⟩ := hx; exact ⟨a * a, mul_self_nonneg a, (EReal.coe_mul a a).symm⟩

theorem IsNN.add {x y : EReal} (hx : IsNN x) (hy : IsNN y) : IsNN (x + y) := by
  obtain ⟨a, ha, rfl⟩ := hx; obtain ⟨b, hb, rfl⟩ := hy
  exact ⟨a + b, add_nonneg ha hb, (EReal.coe_add a b).symm⟩

theorem IsNN.sum {ι : Type*} (s : Finset ι) (f : ι → EReal) (h : ∀ i ∈ s, IsNN (f i)) : IsNN (∑ i ∈ s, f i) := by
  classical
  induction s using Finset.induction_on with
  | empty => rw [Finset.sum_empty]; exact IsNN.zero
  | insert a s ha ih =>
    rw [Finset.sum_insert ha]
    exact (h a (Finset.mem_insert_self a s)).add (ih fun i hi => h i (Finset.mem_insert_of_mem hi))

/-- The square root of a non-negative real number is a non-negative real number. -/
theorem IsNN.sqrt {x : EReal} (hx : IsNN x) : IsNN (Ideal.sqrt x) := by
  obtain ⟨a, ha, rfl⟩ := hx
  rw [Ideal.sqrt_coe, if_neg (not_lt.2 ha)]
  exact ⟨Real.sqrt a, Real.sqrt_nonneg a, rfl⟩

/-- The maximum of a positive real number and a real number is a positive real number. -/
theorem IsPos.max_left {x y : EReal} (hx : IsPos x) (hy : IsR y) : IsPos (max x y) := by
  obtain ⟨a, ha, rfl⟩ := hx; obtain ⟨b, rfl⟩ := hy
  exact ⟨max a b, lt_max_of_lt_left ha, (EReal.coe_strictMono.monotone.map_max (a := a) (b := b)).symm⟩

/-- A real number divided by a positive real number is a real number. -/
theorem IsR.div_pos {x y : EReal} (hx : IsR x) (hy : IsPos y) : IsR (Ideal.div x y) := by
  obtain ⟨b, hb, rfl⟩ := hy
  exact hx.div rfl hb.ne'

/-- A 32-bit float pattern with sign bit 0 whose exponent field is neither 0 nor all ones denotes a positive real. -/
theorem isPos_ofBits_f32 (w : BitVec 32) (hs : (w.extractLsb' 31 1 == 1#1) = false)
    (h255 : (w.extractLsb' 23 8).toNat ≠ 255) (h0 : (w.extractLsb' 23 8).toNat ≠ 0) : IsPos (Ideal.ofBits .f32 w) := by
  show IsPos (Ideal.ieee 8 23 w)
  unfold Ideal.ieee
  dsimp only
  rw [if_neg (by norm_num; exact h255), if_neg h0]
  norm_num [hs]
  refine ⟨_, ?_, rfl⟩
  positivity

/-! ## Arrays -/

variable {s t u : Shape} {φ : FTy}

/-- Every entry of the array is a non-negative real number. -/
def AllNN (x : FVec Ideal s φ) : Prop := ∀ i, IsNN (x i)

/-- Every entry of the array is a positive real number. -/
def AllPos (x : FVec Ideal s φ) : Prop := ∀ i, IsPos (x i)

theorem AllNN.allReal {x : FVec Ideal s φ} (h : AllNN x) : AllReal x := fun i => (h i).isR

theorem AllPos.allReal {x : FVec Ideal s φ} (h : AllPos x) : AllReal x := fun i => (h i).isR

/-- The entrywise sum. -/
theorem AllReal.of_addf {x y : FVec Ideal s φ} (hx : AllReal x) (hy : AllReal y) : AllReal (addf x y) :=
  fun i => (hx i).add (hy i)

/-- The entrywise difference. -/
theorem AllReal.of_subf {x y : FVec Ideal s φ} (hx : AllReal x) (hy : AllReal y) : AllReal (subf x y) :=
  fun i => (hx i).sub (hy i)

/-- A slice reads every entry from the operand. -/
theorem AllReal.of_extractStridedSlice {x : FVec Ideal s φ} (hx : AllReal x) (off : Fin s.rank → Nat)
    (h : s.Slices off t) : AllReal (φ := φ) (extractStridedSlice t off x h) := by
  intro j; unfold Idealize.ShloMosaic.extractStridedSlice; exact hx _

/-- A concatenation of three pieces. -/
theorem AllReal.of_concatenate₃ {s₁ s₂ s₃ : Shape} (a : Fin t.rank) {x : FVec Ideal s₁ φ} {y : FVec Ideal s₂ φ}
    {z : FVec Ideal s₃ φ} (hx : AllReal x) (hy : AllReal y) (hz : AllReal z)
    (h : Shape.Concatenates [s₁, s₂, s₃] t a) :
    AllReal (φ := φ) (concatenate t a [⟨s₁, x⟩, ⟨s₂, y⟩, ⟨s₃, z⟩] h) :=
  AllReal.of_concatenate a [⟨s₁, x⟩, ⟨s₂, y⟩, ⟨s₃, z⟩] h fun p hp => by
    simp only [List.mem_cons, List.not_mem_nil, or_false] at hp
    rcases hp with rfl | rfl | rfl
    · exact hx
    · exact hy
    · exact hz

/-- The splat of a 32-bit float pattern whose exponent field is not all ones. -/
theorem AllReal.of_constant (w : BitVec 32) (h : (w.extractLsb' 23 8).toNat ≠ 255) :
    AllReal (constant (F := Ideal) s .f32 w) :=
  fun _ => isR_ofBits_f32 w h

/-- The splat of a 32-bit float pattern that denotes a positive real. -/
theorem AllPos.of_constant (w : BitVec 32) (hs : (w.extractLsb' 31 1 == 1#1) = false)
    (h255 : (w.extractLsb' 23 8).toNat ≠ 255) (h0 : (w.extractLsb' 23 8).toNat ≠ 0) :
    AllPos (constant (F := Ideal) s .f32 w) :=
  fun _ => isPos_ofBits_f32 w hs h255 h0

/-- The splat of the zero pattern. -/
theorem AllNN.of_constant_zero : AllNN (constant (F := Ideal) s .f32 0x00000000#32) :=
  fun _ => by
    show IsNN (Ideal.ofBits .f32 0x00000000#32)
    rw [Ideal.ofBits_zero_f32]; exact IsNN.zero

/-- The entrywise square. -/
theorem AllReal.mulf_self {x : FVec Ideal s φ} (hx : AllReal x) : AllNN (mulf x x) :=
  fun i => (hx i).mul_self

/-- A broadcast along named axes reads every entry from the operand. -/
theorem AllNN.of_broadcastInDim {x : FVec Ideal s φ} (hx : AllNN x) (dims : Fin s.rank → Fin t.rank)
    (h : s.BroadcastsInDim t dims) : AllNN (φ := φ) (broadcastInDim t dims h x) := by
  intro j; unfold Idealize.ShloMosaic.broadcastInDim; exact hx _

theorem AllPos.of_broadcastInDim {x : FVec Ideal s φ} (hx : AllPos x) (dims : Fin s.rank → Fin t.rank)
    (h : s.BroadcastsInDim t dims) : AllPos (φ := φ) (broadcastInDim t dims h x) := by
  intro j; unfold Idealize.ShloMosaic.broadcastInDim; exact hx _

/-- The host's sum over some axes of an array of non-negative reals, from a non-negative initial value. -/
theorem AllNN.of_hostReduceAdd {axes : List (Fin s.rank)} {x : FVec Ideal s φ} (hx : AllNN x) (init : u.Idx → Ideal φ)
    (h : s.ReducesTo axes t) (hu : 0 < u.numel) (hinit : IsNN (init (Shape.Idx.first hu))) :
    AllNN (Host.reduceAdd (F := Ideal) x init h hu) := by
  intro j
  show IsNN (Ideal.hostReduceAdd h x (init (Shape.Idx.first hu)) j)
  unfold Ideal.hostReduceAdd
  exact hinit.add (IsNN.sum _ _ fun i _ => hx i)

/-- The host's entrywise square root. -/
theorem AllNN.of_hostSqrt {x : FVec Ideal s φ} (hx : AllNN x) : AllNN (Host.sqrt x) :=
  fun i => (hx i).sqrt

/-- The entrywise maximum of an array of positive reals with an array of reals. -/
theorem AllPos.of_maximumf {x y : FVec Ideal s φ} (hx : AllPos x) (hy : AllReal y) : AllPos (maximumf x y) :=
  fun i => (hx i).max_left (hy i)

/-- The host's entrywise quotient of an array of reals by an array of positive reals. -/
theorem AllReal.of_hostDivf {x y : FVec Ideal s φ} (hx : AllReal x) (hy : AllPos y) : AllReal (Host.divf x y) :=
  fun i => (hx i).div_pos (hy i)

end Cert.RealEntries

end
-- ==== Proof.RealPoints.lean ====
/-
  The rotated point arrays of the reference program have real entries.

  From a quaternion array x : [16, 4] with real entries the reference forms the normalised quaternion
  q = x / max(ε, √(Σ x²)) (ε the float of about 1e-8), the nine entries of its rotation matrix R : [16, 3, 3], and the
  rotated points R · P : [16, 3, 2048] for a point array P : [16, 3, 2048].  When x and P have real entries, every entry
  of R · P is a real number: the normalising divisor is a positive real, the entries of R are polynomials in the entries
  of q, and an entry of R · P is a sum of three products of reals.
-/
import proofs.«110801_j63591285785229_2_alg».proof.Proof.RefRead
import proofs.«110801_j63591285785229_2_alg».proof.Proof.LibRealClosure

noncomputable section

namespace Cert.RealPts

open Cert.ReferenceIdeal Cert.ReferenceIdeal.Gen Cert.ReferenceIdeal.Read Cert.RealEntries Idealize.ShloMosaic

/-- The normalised quaternion x / max(ε, √(Σ x²)): the sum of squares is a non-negative real, so is its square
    root; ε is a positive real, so the maximum is a positive real and the quotient is real. -/
theorem quat0_real (x0 : (⟨S16x4, .f32⟩ : BufTy).Contents (Elt Ideal)) (h : AllReal (s := S16x4) (φ := .f32) x0) :
    AllReal (s := S16x4) (φ := .f32) (val_main_v14 (F := Ideal) x0) := by
  unfold val_main_v14 val_main_v13 val_main_v12 val_main_v11 val_main_call3_v2 val_main_call3_v1 val_main_call3_v0 val_main_call3_cst val_main_call4_v1 val_main_call4_v0 val_main_cst_4
  have hsum : AllNN (Host.reduceAdd (F := Ideal) (mulf x0 x0) (constant (F := Ideal) S_ .f32 0x00000000#32)
      reducesTo_S16x4_S16_d1 h_S_) :=
    AllNN.of_hostReduceAdd h.mulf_self _ _ _ (AllNN.of_constant_zero _)
  have heps : AllPos (constant (F := Ideal) S_ .f32 0x322BCC77#32) :=
    AllPos.of_constant _ (by decide) (by decide) (by decide)
  exact h.of_hostDivf (AllPos.of_broadcastInDim (AllPos.of_maximumf (AllPos.of_broadcastInDim heps _ _)
    (AllNN.allReal (AllNN.of_hostSqrt (AllNN.of_broadcastInDim hsum _ _)))) _ _)

/-- The rotation matrix of the normalised quaternion: its nine entries are sums, differences and products of the four
    columns of the quaternion and of the constants 1 and 2, placed by broadcasts and concatenations. -/
theorem rot0_real (x0 : (⟨S16x4, .f32⟩ : BufTy).Contents (Elt Ideal)) (h : AllReal (s := S16x4) (φ := .f32) x0) :
    AllReal (s := S16x3x3) (φ := .f32) (val_main_v89 (F := Ideal) x0) := by
  have hq := quat0_real x0 h
  have hw : AllReal (s := S16) (φ := .f32) (val_main_v16 (F := Ideal) x0) := by
    unfold val_main_v16 val_main_v15; exact (hq.of_extractStridedSlice _ _).of_shapeCast _
  have hx : AllReal (s := S16) (φ := .f32) (val_main_v18 (F := Ideal) x0) := by
    unfold val_main_v18 val_main_v17; exact (hq.of_extractStridedSlice _ _).of_shapeCast _
  have hy : AllReal (s := S16) (φ := .f32) (val_main_v20 (F := Ideal) x0) := by
    unfold val_main_v20 val_main_v19; exact (hq.of_extractStridedSlice _ _).of_shapeCast _
  have hz : AllReal (s := S16) (φ := .f32) (val_main_v22 (F := Ideal) x0) := by
    unfold val_main_v22 val_main_v21; exact (hq.of_extractStridedSlice _ _).of_shapeCast _
  simp only [val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_cst_5, val_main_cst_6, val_main_cst_7, val_main_cst_8, val_main_cst_9, val_main_cst_10, val_main_cst_11, val_main_cst_12, val_main_cst_13, val_main_cst_14, val_main_cst_15, val_main_cst_16]
  repeat' first
    | with_reducible exact hw | with_reducible exact hx | with_reducible exact hy | with_reducible exact hz
    | with_reducible apply AllReal.of_mulf
    | with_reducible apply AllReal.of_addf
    | with_reducible apply AllReal.of_subf
    | with_reducible apply AllReal.of_broadcastInDim
    | with_reducible apply AllReal.of_concatenate₃
    | with_reducible apply AllReal.of_constant
    | decide

/-- The normalised quaternion x / max(ε, √(Σ x²)): the sum of squares is a non-negative real, so is its square
    root; ε is a positive real, so the maximum is a positive real and the quotient is real. -/
theorem quat1_real (x1 : (⟨S16x4, .f32⟩ : BufTy).Contents (Elt Ideal)) (h : AllReal (s := S16x4) (φ := .f32) x1) :
    AllReal (s := S16x4) (φ := .f32) (val_main_v93 (F := Ideal) x1) := by
  unfold val_main_v93 val_main_v92 val_main_v91 val_main_v90 val_main_call5_v2 val_main_call5_v1 val_main_call5_v0 val_main_call5_cst val_main_call6_v1 val_main_call6_v0 val_main_cst_17
  have hsum : AllNN (Host.reduceAdd (F := Ideal) (mulf x1 x1) (constant (F := Ideal) S_ .f32 0x00000000#32)
      reducesTo_S16x4_S16_d1 h_S_) :=
    AllNN.of_hostReduceAdd h.mulf_self _ _ _ (AllNN.of_constant_zero _)
  have heps : AllPos (constant (F := Ideal) S_ .f32 0x322BCC77#32) :=
    AllPos.of_constant _ (by decide) (by decide) (by decide)
  exact h.of_hostDivf (AllPos.of_broadcastInDim (AllPos.of_maximumf (AllPos.of_broadcastInDim heps _ _)
    (AllNN.allReal (AllNN.of_hostSqrt (AllNN.of_broadcastInDim hsum _ _)))) _ _)

/-- The rotation matrix of the normalised quaternion: its nine entries are sums, differences and products of the four
    columns of the quaternion and of the constants 1 and 2, placed by broadcasts and concatenations. -/
theorem rot1_real (x1 : (⟨S16x4, .f32⟩ : BufTy).Contents (Elt Ideal)) (h : AllReal (s := S16x4) (φ := .f32) x1) :
    AllReal (s := S16x3x3) (φ := .f32) (val_main_v168 (F := Ideal) x1) := by
  have hq := quat1_real x1 h
  have hw : AllReal (s := S16) (φ := .f32) (val_main_v95 (F := Ideal) x1) := by
    unfold val_main_v95 val_main_v94; exact (hq.of_extractStridedSlice _ _).of_shapeCast _
  have hx : AllReal (s := S16) (φ := .f32) (val_main_v97 (F := Ideal) x1) := by
    unfold val_main_v97 val_main_v96; exact (hq.of_extractStridedSlice _ _).of_shapeCast _
  have hy : AllReal (s := S16) (φ := .f32) (val_main_v99 (F := Ideal) x1) := by
    unfold val_main_v99 val_main_v98; exact (hq.of_extractStridedSlice _ _).of_shapeCast _
  have hz : AllReal (s := S16) (φ := .f32) (val_main_v101 (F := Ideal) x1) := by
    unfold val_main_v101 val_main_v100; exact (hq.of_extractStridedSlice _ _).of_shapeCast _
  simp only [val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_cst_18, val_main_cst_19, val_main_cst_20, val_main_cst_21, val_main_cst_22, val_main_cst_23, val_main_cst_24, val_main_cst_25, val_main_cst_26, val_main_cst_27, val_main_cst_28, val_main_cst_29]
  repeat' first
    | with_reducible exact hw | with_reducible exact hx | with_reducible exact hy | with_reducible exact hz
    | with_reducible apply AllReal.of_mulf
    | with_reducible apply AllReal.of_addf
    | with_reducible apply AllReal.of_subf
    | with_reducible apply AllReal.of_broadcastInDim
    | with_reducible apply AllReal.of_concatenate₃
    | with_reducible apply AllReal.of_constant
    | decide

/-- The predicted points: every entry of R(x0) · P is a sum of three products of reals. -/
theorem predpts_real (x0 : (⟨S16x4, .f32⟩ : BufTy).Contents (Elt Ideal))
    (x2 : (⟨S16x3x2048, .f32⟩ : BufTy).Contents (Elt Ideal)) (h0 : AllReal (s := S16x4) (φ := .f32) x0) (h2 : AllReal (s := S16x3x2048) (φ := .f32) x2) :
    AllReal (s := S16x3x2048) (φ := .f32) (Cert.ReferenceIdeal.Read.val_main_v169 (F := Ideal) x0 x2) := by
  intro i
  rw [val_main_v169_apply]
  exact IsR.sum _ _ fun k _ => (rot0_real x0 h0 _).mul (h2 _)

/-- The ground-truth points: every entry of R(x1) · P is a sum of three products of reals. -/
theorem gtpts_real (x1 : (⟨S16x4, .f32⟩ : BufTy).Contents (Elt Ideal))
    (x2 : (⟨S16x3x2048, .f32⟩ : BufTy).Contents (Elt Ideal)) (h1 : AllReal (s := S16x4) (φ := .f32) x1) (h2 : AllReal (s := S16x3x2048) (φ := .f32) x2) :
    AllReal (s := S16x3x2048) (φ := .f32) (Cert.ReferenceIdeal.Read.val_main_v170 (F := Ideal) x1 x2) := by
  intro i
  rw [val_main_v170_apply]
  exact IsR.sum _ _ fun k _ => (rot1_real x1 h1 _).mul (h2 _)

end Cert.RealPts

end
-- ==== Proof.LibFiniteInputs.lean ====
/-
  A reusable lemma: what the precondition "every entry is finite" says over the extended reals.

  The precondition is written as all(|x| < +∞): the entrywise absolute value compared, by the ordered "less than", with
  the splat of the float pattern of +∞, and the comparisons reduced by "and" over every axis from the constant true.
  Over the extended reals the pattern of +∞ denotes ⊤, the absolute value of x is max x (−x), and max x (−x) < ⊤ holds
  exactly when x is neither ⊤ nor ⊥: so the reduction being true says that every entry is a real number.
-/
import proofs.«110801_j63591285785229_2_alg».proof.Proof.LibRealEntries
import Idealize.ShloMosaic.Lib.ReduceAll

noncomputable section

namespace Cert.RealEntries

open Idealize.ShloMosaic

/-- The float pattern of +∞ denotes ⊤. -/
theorem ofBits_inf : Ideal.ofBits .f32 0x7F800000#32 = ⊤ := by
  simp [Ideal.ofBits, Ideal.ieee]

/-- |x| < ⊤ says that x is a real number. -/
theorem isR_of_abs_lt_top (x : EReal) (h : Ideal.cmp .olt (max x (-x)) ⊤ = 1#1) : IsR x := by
  have h' : max x (-x) < ⊤ := by
    have h1 : Ideal.cmp .olt (max x (-x)) ⊤ = BitVec.ofBool (decide (max x (-x) < ⊤)) := rfl
    rw [h1] at h
    by_contra hn
    rw [decide_eq_false hn] at h
    exact absurd h (by decide)
  induction x using EReal.rec with
  | bot => simp at h'
  | coe r => exact ⟨r, rfl⟩
  | top => simp at h'

/-- all(|x| < +∞) reduced over every axis is true: every entry of x is a real number. -/
theorem allReal_of_all_finite {s t u : Shape} {axes : List (Fin s.rank)} [Subsingleton t.Idx] (x : FVec Ideal s .f32)
    (hb : (⟨0, ![]⟩ : Shape).BroadcastsInDim s (![] : Fin 0 → Fin s.rank)) (init : u.Idx → BitVec 1)
    (h : s.ReducesTo axes t) (hu : 0 < u.numel) (j : t.Idx)
    (e : Host.reduce IntOp.andi
        (cmpf .olt (Host.absf x) (broadcastInDim s ![] hb (constant (F := Ideal) ⟨0, ![]⟩ .f32 0x7F800000#32))) init h hu j = 1#1) :
    AllReal x := fun i => by
  have hi := Host.reduce_andi_all _ init h hu j e i
  refine isR_of_abs_lt_top (x i) ?_
  rw [← ofBits_inf]
  exact hi

end Cert.RealEntries

end
-- ==== Proof.RealInputs.lean ====
/-
  The precondition read at the extended reals: every entry of the three argument arrays is a real number.

  The precondition says that all(|x| < +∞) holds for each of the three arrays and that the conjunction of the three
  answers is true.  A conjunction of one-bit values is 1 only when each of them is 1, and all(|x| < +∞) = 1 says that every
  entry of x is a real number.
-/
import proofs.«110801_j63591285785229_2_alg».proof.Defs
import proofs.«110801_j63591285785229_2_alg».proof.Proof.Gen.Pre_finite_inputs
import proofs.«110801_j63591285785229_2_alg».proof.Proof.LibFiniteInputs

noncomputable section

namespace Cert.RealPts

open Idealize.ShloMosaic Idealize.SL.Sem Cert.RealEntries

/-- A conjunction of two one-bit values is 1 only when both are. -/
theorem and_eq_one (a b : BitVec 1) (h : a &&& b = 1#1) : a = 1#1 ∧ b = 1#1 := by
  rcases BitVec.eq_zero_or_eq_one a with ha | ha <;> rcases BitVec.eq_zero_or_eq_one b with hb | hb <;>
    subst ha <;> subst hb <;> revert h <;> decide

theorem inputs_real_fn (x0 x1 : FVec Ideal Cert.Pre_finite_inputs.S16x4 .f32)
    (x2 : FVec Ideal Cert.Pre_finite_inputs.S16x3x2048 .f32)
    (h : Cert.Pre_finite_inputs.fn (F := Ideal) x0 x1 x2 = fun _ => 1#1) :
    AllReal x0 ∧ AllReal x1 ∧ AllReal x2 := by
  have hc := congrFun h (fun a => a.elim0)
  unfold Cert.Pre_finite_inputs.fn at hc
  dsimp only at hc
  obtain ⟨h01, h2⟩ := and_eq_one _ _ hc
  obtain ⟨h0, h1⟩ := and_eq_one _ _ h01
  exact ⟨allReal_of_all_finite x0 _ _ _ _ _ h0, allReal_of_all_finite x1 _ _ _ _ _ h1,
    allReal_of_all_finite x2 _ _ _ _ _ h2⟩

/-- Under the precondition of the kernel's program, on every device the three argument arrays have real entries. -/
theorem inputs_real (m : (ℓ : Loc Cert.KernelIdeal.nD Cert.KernelIdeal.τ Cert.KernelIdeal.sig) → Buf (Elt Ideal) ℓ)
    (h : Cert.Pre_KernelIdeal m) (c : Dev Cert.KernelIdeal.nD) :
    AllReal (s := Cert.Pre_finite_inputs.S16x4) (φ := .f32)
        (m ((c.tc : Thread Cert.KernelIdeal.nD Cert.KernelIdeal.τ).loc Cert.KernelIdeal.main_arg0))
      ∧ AllReal (s := Cert.Pre_finite_inputs.S16x4) (φ := .f32)
        (m ((c.tc : Thread Cert.KernelIdeal.nD Cert.KernelIdeal.τ).loc Cert.KernelIdeal.main_arg1))
      ∧ AllReal (s := Cert.Pre_finite_inputs.S16x3x2048) (φ := .f32)
        (m ((c.tc : Thread Cert.KernelIdeal.nD Cert.KernelIdeal.τ).loc Cert.KernelIdeal.main_arg2)) :=
  inputs_real_fn _ _ _ (h c)

end Cert.RealPts

end
-- ==== Proof.Final.lean ====
/-
  The two programs' results are one function of the arguments.
  The cosine loss is computed by the same host lines in both programs.  For the point-cloud loss, the kernel's region
  leaves, at (b, 0, m), the nearest-neighbour value of predicted point m of batch b computed from the augmented clouds
  (`KArr`); for finite inputs the rotated clouds have real entries, and then that value is the reference's minimum at
  (b, m) (`entry_eq`).  Equal entries give equal totals, and the same closing lines (divide by 32768, guard) apply to both.
-/
import proofs.«110801_j63591285785229_2_alg».proof.Defs
import proofs.«110801_j63591285785229_2_alg».proof.Proof.FrameKI
import proofs.«110801_j63591285785229_2_alg».proof.Proof.KernelValue
import proofs.«110801_j63591285785229_2_alg».proof.Proof.KPrefix198
import proofs.«110801_j63591285785229_2_alg».proof.Proof.KPrefix204
import proofs.«110801_j63591285785229_2_alg».proof.Proof.KPrefix10
import proofs.«110801_j63591285785229_2_alg».proof.Proof.KTail
import proofs.«110801_j63591285785229_2_alg».proof.Proof.RefSide
import proofs.«110801_j63591285785229_2_alg».proof.Proof.Bridge
import proofs.«110801_j63591285785229_2_alg».proof.Proof.TotalSum
import proofs.«110801_j63591285785229_2_alg».proof.Proof.RealPoints
import proofs.«110801_j63591285785229_2_alg».proof.Proof.RealInputs
import proofs.«110801_j63591285785229_2_alg».proof.Proof.RefRun
import proofs.«110801_j63591285785229_2_alg».proof.Proof.RefRead

set_option maxRecDepth 16384

noncomputable section

namespace Cert.Chamfer.Final

open Idealize.ShloMosaic Idealize.ShloMosaic.ValueIdx Idealize.ShloMosaic.TcCoe Idealize.SL.Sem
open Cert.Chamfer.KHost Cert.Chamfer.KVal Cert.Chamfer.KTail
open Cert.RealEntries
open Cert.ReferenceIdeal.Read

section Values

variable (x0 x1 : (⟨Cert.ReferenceIdeal.S16x4, .f32⟩ : BufTy).Contents (Elt Ideal))
  (x2 : (⟨Cert.ReferenceIdeal.S16x3x2048, .f32⟩ : BufTy).Contents (Elt Ideal))
  (h0 : AllReal (s := Cert.ReferenceIdeal.S16x4) (φ := .f32) x0) (h1 : AllReal (s := Cert.ReferenceIdeal.S16x4) (φ := .f32) x1)
  (h2 : AllReal (s := Cert.ReferenceIdeal.S16x3x2048) (φ := .f32) x2)

include h0 h1 h2

/-- Entry (b, 0, m) of the region's output is entry (b, m) of the reference's minimum. -/
theorem out_entry (b : Fin 16) (m : Fin 2048) :
    KArr (gtAug (F := Ideal) (val_main_v170 (F := Ideal) x1 x2)) (predAug (F := Ideal) (val_main_v169 (F := Ideal) x0 x2))
        (ix3 b (0 : Fin 1) m)
      = val_main_v184 (F := Ideal) x0 x1 x2 (ix2 b m) := by
  rw [Cert.Chamfer.Ref.min_apply]
  simp only [Cert.Chamfer.Ref.l2_apply]
  exact entry_eq _ _ (Cert.RealPts.gtpts_real x1 x2 h1 h2) (Cert.RealPts.predpts_real x0 x2 h0 h2) b m

/-- The totals agree. -/
theorem total :
    Host.reduceAdd (F := Ideal)
        (KArr (gtAug (F := Ideal) (val_main_v170 (F := Ideal) x1 x2)) (predAug (F := Ideal) (val_main_v169 (F := Ideal) x0 x2)))
        (constant Cert.KernelIdeal.S_ .f32 0x00000000#32) Cert.KernelIdeal.Facts₀.reducesTo_S16x1x2048_S_d0_1_2 Cert.KernelIdeal.Facts₀.h_S_
      = val_main_v185 (F := Ideal) x0 x1 x2 := by
  unfold val_main_v185
  exact total_eq _ _ (out_entry x0 x1 x2 h0 h1 h2) _ _ _ _

/-- The point-cloud losses agree. -/
theorem loss_eq :
    lossOf (F := Ideal) (Host.reduceAdd (F := Ideal)
        (KArr (gtAug (F := Ideal) (val_main_v170 (F := Ideal) x1 x2)) (predAug (F := Ideal) (val_main_v169 (F := Ideal) x0 x2)))
        (constant Cert.KernelIdeal.S_ .f32 0x00000000#32) Cert.KernelIdeal.Facts₀.reducesTo_S16x1x2048_S_d0_1_2 Cert.KernelIdeal.Facts₀.h_S_)
      = val_main_v188 (F := Ideal) x0 x1 x2 := by
  rw [total x0 x1 x2 h0 h1 h2]
  rfl

end Values

/-! ## The runs -/

open Cert.KernelIdeal Cert.KernelIdeal.Gen in
/-- The kernel's program, under the precondition: both results at the reference's functions of the arguments, the
    arguments unchanged. -/
theorem kernel_run (m : (ℓ : Loc Cert.KernelIdeal.nD Cert.KernelIdeal.τ Cert.KernelIdeal.sig) → Buf (Elt Ideal) ℓ)
    (ρ : Dev Cert.KernelIdeal.nD → PrngReg) (hpre : Cert.Pre_KernelIdeal (hPre_finite_inputs := Cert.Pre_finite_inputs.Gen.facts) m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread nD τ).loc main_v10)
            = val_main_v10 (F := Ideal) (m ((c.tc : Thread nD τ).loc main_arg0)) (m ((c.tc : Thread nD τ).loc main_arg1))
        ∧ r.2.mem ((c.tc : Thread nD τ).loc main_v209)
            = val_main_v188 (F := Ideal) (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) := by
  refine (θ_run (Cert.KernelIdeal.defs (F := Ideal)) _ _).mono (fun r h c => ?_) (Cert.KernelIdeal.Hand.run_main m ρ)
  obtain ⟨h0, h1, h2⟩ := Cert.RealPts.inputs_real m hpre c
  refine ⟨?_, ?_, ?_, ?_, ?_⟩
  · exact (((h c).2 main_v10 (Pipeline.mem_restRefs_of main_v10 (by decide) (by decide))).trans (tail10 m c)).trans
      (Cert.Chamfer.KPrefix.V10 m c)
  · refine ((h c).2 main_v209 (Pipeline.mem_restRefs_of main_v209 (by decide) (by decide))).trans ((tail209 m c).trans ?_)
    rw [Cert.Chamfer.KVal.final m c, Cert.Chamfer.KPrefix.V198 m c, Cert.Chamfer.KPrefix.V204 m c]
    exact loss_eq _ _ _ h0 h1 h2
  · exact ((h c).2 main_arg0 (Pipeline.mem_restRefs_of main_arg0 (by decide) (by decide))).trans (Cert.KernelIdeal.Hand.W_main_arg0 m _ c)
  · exact ((h c).2 main_arg1 (Pipeline.mem_restRefs_of main_arg1 (by decide) (by decide))).trans (Cert.KernelIdeal.Hand.W_main_arg1 m _ c)
  · exact ((h c).2 main_arg2 (Pipeline.mem_restRefs_of main_arg2 (by decide) (by decide))).trans (Cert.KernelIdeal.Hand.W_main_arg2 m _ c)

/-- The reference's frame: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Both programs, from memories agreeing on the arguments, end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, _, kernel_run m ρ hpre, ?_⟩
  refine (θ_run Cert.ReferenceIdeal.defs _ _).mono (fun r h c => ⟨?_, ?_, (h c).2.2.1, (h c).2.2.2.1, (h c).2.2.2.2⟩)
    (Cert.ReferenceIdeal.Value.run (F := Ideal) m' ρ')
  · rw [(h c).1, val_main_v10_eq, (hagree c).1, (hagree c).2.1]
  · rw [(h c).2.1, val_main_v188_eq, (hagree c).1, (hagree c).2.1, (hagree c).2.2]

end Cert.Chamfer.Final

end
-- ==== Proof.lean ====
/-
  The certificate: a cosine-embedding loss on quaternions together with a nearest-neighbour point-cloud loss, the
  latter computed by a kernel that folds the squared norms into a K = 4 product, against the plain jnp reference.
  The three frames: the kernel's program at both instances runs its host lines, its one region over the 16 × 2 grid
  and its closing lines and leaves the arguments untouched (`Hand.frame`); the reference's is its run.  The idealization
  rewrote nothing.  Equality of the results over the extended reals is `Cert.Chamfer.Final.algebraic`.
-/
import proofs.«110801_j63591285785229_2_alg».proof.Defs
import proofs.«110801_j63591285785229_2_alg».proof.Proof.Gen.Kernel
import proofs.«110801_j63591285785229_2_alg».proof.Proof.Gen.KernelIdeal
import proofs.«110801_j63591285785229_2_alg».proof.Proof.Gen.ReferenceIdeal
import proofs.«110801_j63591285785229_2_alg».proof.Proof.Gen.Pre_finite_inputs
import proofs.«110801_j63591285785229_2_alg».proof.Proof.FrameK
import proofs.«110801_j63591285785229_2_alg».proof.Proof.FrameKI
import proofs.«110801_j63591285785229_2_alg».proof.Proof.Final

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    Cert.Chamfer.Final.frame_ri,
    trivial,
    Cert.Chamfer.Final.algebraic⟩

end Cert.Proof

end
